-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192x1 : Shape := ⟨3, ![4, 8192, 1]⟩
abbrev S4x512x3 : Shape := ⟨3, ![4, 512, 3]⟩
abbrev S4x3x512 : Shape := ⟨3, ![4, 3, 512]⟩
abbrev S4x512x1 : Shape := ⟨3, ![4, 512, 1]⟩
abbrev S4x512x512 : Shape := ⟨3, ![4, 512, 512]⟩
abbrev S4x512 : Shape := ⟨2, ![4, 512]⟩
abbrev S4x1x512 : Shape := ⟨3, ![4, 1, 512]⟩
abbrev S4x8192 : Shape := ⟨2, ![4, 8192]⟩
abbrev S_ : Shape := ⟨0, ![]⟩

abbrev nBuf : Space → Nat
  | .hbm => 19
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x3x8192, .f32⟩
  | .hbm, ⟨4, _⟩ => ⟨S4x8192x1, .f32⟩
  | .hbm, ⟨5, _⟩ => ⟨S4x8192, .f32⟩
  | .hbm, ⟨6, _⟩ => ⟨S4x8192x1, .f32⟩
  | .hbm, ⟨7, _⟩ => ⟨S4x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x3x512, .f32⟩
  | .local _ .vmem, ⟨3, _⟩ => ⟨S4x3x512, .f32⟩
  | .local _ .vmem, ⟨4, _⟩ => ⟨S4x512x1, .f32⟩
  | .local _ .vmem, ⟨5, _⟩ => ⟨S4x512x1, .f32⟩
  | .local _ .vmem, ⟨6, _⟩ => ⟨S4x512x1, .f32⟩
  | .local _ .vmem, ⟨7, _⟩ => ⟨S4x512x3, .f32⟩
  | .local _ .vmem, ⟨8, _⟩ => ⟨S4x512x3, .f32⟩
  | .local _ .vmem, ⟨9, _⟩ => ⟨S4x3x512, .f32⟩
  | .local _ .vmem, ⟨10, _⟩ => ⟨S4x3x512, .f32⟩
  | .local _ .vmem, ⟨11, _⟩ => ⟨S4x512x1, .f32⟩
  | .local _ .vmem, ⟨12, _⟩ => ⟨S4x512x1, .f32⟩
  | .local _ .vmem, ⟨13, _⟩ => ⟨S4x512x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_16 : BitVec 32 := 0#32
  let v30 : BitVec 1 := Scalar.cmpi .ne v29 c0_i32_16
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_16 : BitVec 32 := 0#32
  let v30 : BitVec 1 := Scalar.cmpi .ne v29 c0_i32_16
  v30

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x3x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S4x8192x3_S4x3x8192_0_2_1 : S4x8192x3.Transposes [0, 2, 1] S4x3x8192
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x512x3_S4x512x3_0_0_0 : ∀ a, (![0, 0, 0] : Fin 3 → Nat) a + S4x512x3.size a ≤ S4x512x3.size a
  h_S4x512x3 : 0 < S4x512x3.numel
  inb_S4x3x512_S4x3x512_0_0_0 : ∀ a, (![0, 0, 0] : Fin 3 → Nat) a + S4x3x512.size a ≤ S4x3x512.size a
  h_S4x3x512 : 0 < S4x3x512.numel
  shapeCasts_S4x3x512_S4x3x512 : S4x3x512.ShapeCasts S4x3x512
  bitsLt_bf16_f32 : FTy.bits .bf16 < FTy.bits .f32
  reduces_S4x512x3_S4x512 : S4x512x3.Reduces [2] S4x512
  shapeCasts_S4x512_S4x512x1 : S4x512.ShapeCasts S4x512x1
  reduces_S4x3x512_S4x512 : S4x3x512.Reduces [1] S4x512
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  shapeCasts_S4x8192x1_S4x8192 : S4x8192x1.ShapeCasts S4x8192
  reducesTo_S4x8192_S_d0_1 : S4x8192.ReducesTo [0, 1] S_
  h_S_ : 0 < S_.numel
  dot_S4x512x3_S4x3x512_S4x512x512_2_1_1_2_0_0_wf : DotDims.WF S4x512x3 S4x3x512 S4x512x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x512.size a ≤ S4x3x8192.size a
  hwx0_1 : ∀ i : grid0.Coords, EltTy.bits .f32 = 32 ∨ (Rect.block (s := S4x3x8192) S4x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1.size a ≤ S4x8192x1.size a
  hwx0_2 : ∀ i : grid0.Coords, EltTy.bits .f32 = 32 ∨ (Rect.block (s := S4x8192x1) S4x512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x3x512.size a ≤ S4x3x8192.size a
  hwx1_1 : ∀ i : grid1.Coords, EltTy.bits .f32 = 32 ∨ (Rect.block (s := S4x3x8192) S4x3x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512x1.size a ≤ S4x8192x1.size a
  hwx1_2 : ∀ i : grid1.Coords, EltTy.bits .f32 = 32 ∨ (Rect.block (s := S4x8192x1) S4x512x1.size (cc1_transform_2 i) (hinb1_2 i)).WholeWords (EltTy.packing .f32)

variable [Facts₀]

def dot_S4x512x3_S4x3x512_S4x512x512_2_1_1_2_0_0 : DotDims S4x512x3 S4x3x512 S4x512x512 where
  lhsContracting := [2]
  rhsContracting := [1]
  lhsNonContracting := [1]
  rhsNonContracting := [2]
  lhsBatch := [0]
  rhsBatch := [0]
  wf := dot_S4x512x3_S4x3x512_S4x512x512_2_1_1_2_0_0_wf

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4x3x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S4x512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Bits.Body0.lean ====
/-
  The body of tile kernel 0 at one grid point, case by case. The grid is 16 x 16; its second coordinate walks the
  512-wide tiles of the point set that is searched. At the first tile of a row the running minimum (the scratch
  block) is reset to +inf, at every tile it is lowered by the tile's row minima of the squared distances, and at the
  last tile of a row it is copied to the output block.
-/
import proofs.«111591_j44418551775684_1_alg».proof.Proof.Gen.Kernel.Launch
import proofs.«111591_j44418551775684_1_alg».proof.Proof.Gen.Kernel.Skeleton
import proofs.«111591_j44418551775684_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Tile0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offset of every whole-block access of the body. -/
theorem hz3 : (![0, 0, 0] : Fin 3 → Nat) = fun _ => 0 := by funext a; fin_cases a <;> rfl

/-- A rectangle at offset zero of the shape's own extents holds every index. -/
theorem mem_unit_whole {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- "This is the first tile of its row": the scalar chain of the body's first conditional. -/
abbrev isFirst (i : grid0.Coords) : Prop :=
  (Scalar.cmpi .ne (Scalar.extui (Scalar.cmpi .eq (BitVec.ofNat 32 (i 1).val) 0#32)) 0#32) = 1#1
/-- "This is the last tile of its row": the body's second conditional. -/
abbrev isLast (i : grid0.Coords) : Prop := k0_cond2 i = 1#1

theorem isFirst_iff : ∀ t : Fin cfg0.N, isFirst (grid0.coords t) ↔ t.val % 16 = 0 :=
  (by decide +kernel : ∀ t : Fin grid0.N, isFirst (grid0.coords t) ↔ t.val % 16 = 0)
theorem isLast_iff : ∀ t : Fin cfg0.N, isLast (grid0.coords t) ↔ t.val % 16 = 15 :=
  (by decide +kernel : ∀ t : Fin grid0.N, isLast (grid0.coords t) ↔ t.val % 16 = 15)

/-- One step of the running minimum: the previous minima `prev` lowered by the row minima, over the tile `x1`,
    of |a|² + |b|² − 2 a·b for the query rows `x0`. -/
abbrev step (x0 : Vec F S4x512x3 .f32) (x1 : Vec F S4x3x512 .f32) (prev : Vec F S4x512x1 .f32) : Vec F S4x512x1 .f32 :=
  k0_pay2 x0 x1 prev
/-- The reset value: +inf everywhere. -/
abbrev top : Vec F S4x512x1 .f32 := k0_pay1 (F := F)

set_option maxHeartbeats 1000000 in
/-- First tile of a row, not the last: the scratch block, whatever it held, ends at one step from +inf; the inputs
    are only read and the output block is not touched. -/
theorem run_first (c : Dev nD) (E : Set ℕ) (i : grid0.Coords)
    (arg2 : Memref sig .tc .vmem S4x512x3 .f32) (harg2 : arg2.IsWhole) (arg3 : Memref sig .tc .vmem S4x3x512 .f32) (harg3 : arg3.IsWhole)
    (arg4 : Memref sig .tc .vmem S4x512x1 .f32) (harg4 : arg4.IsWhole) (arg5 : Memref sig .tc .vmem S4x512x1 .f32) (harg5 : arg5.IsWhole)
    (hc0 : isFirst i) (hc1 : ¬isLast i) (x0 : Vec F S4x512x3 .f32) (x1 : Vec F S4x3x512 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (step x0 x1 top)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self, mem_unit_whole hz3 Facts₀.inb_S4x512x1_S4x512x1_0_0_0 y⟩), View.canon_cons_unit_zero hz3]
  simp only [View.readAt_eq_ld, harg2.read_unread, harg3.read_unread, View.ld_unit_zero (S := S4x512x3) hz3,
    View.ld_unit_zero (S := S4x3x512) hz3, View.readCov_unit_zero (S := S4x512x1) _ hz3]

set_option maxHeartbeats 1000000 in
/-- A tile in the middle of a row: the scratch block goes from `xs` to one step below it. -/
theorem run_mid (c : Dev nD) (E : Set ℕ) (i : grid0.Coords)
    (arg2 : Memref sig .tc .vmem S4x512x3 .f32) (harg2 : arg2.IsWhole) (arg3 : Memref sig .tc .vmem S4x3x512 .f32) (harg3 : arg3.IsWhole)
    (arg4 : Memref sig .tc .vmem S4x512x1 .f32) (harg4 : arg4.IsWhole) (arg5 : Memref sig .tc .vmem S4x512x1 .f32) (harg5 : arg5.IsWhole)
    (hc0 : ¬isFirst i) (hc1 : ¬isLast i) (x0 : Vec F S4x512x3 .f32) (x1 : Vec F S4x3x512 .f32) (xs : Vec F S4x512x1 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (step x0 x1 xs)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self, mem_unit_whole hz3 Facts₀.inb_S4x512x1_S4x512x1_0_0_0 y⟩), View.canon_cons_unit_zero hz3]
  simp only [View.readAt_eq_ld, harg2.read_unread, harg3.read_unread, harg5.read_unread, View.ld_unit_zero (S := S4x512x3) hz3,
    View.ld_unit_zero (S := S4x3x512) hz3, View.ld_unit_zero (S := S4x512x1) hz3]

set_option maxHeartbeats 1000000 in
/-- The last tile of a row (never the first): the scratch block goes one step below `xs`, and the output block,
    whatever it held, receives the same minima. -/
theorem run_last (c : Dev nD) (E : Set ℕ) (i : grid0.Coords)
    (arg2 : Memref sig .tc .vmem S4x512x3 .f32) (harg2 : arg2.IsWhole) (arg3 : Memref sig .tc .vmem S4x3x512 .f32) (harg3 : arg3.IsWhole)
    (arg4 : Memref sig .tc .vmem S4x512x1 .f32) (harg4 : arg4.IsWhole) (arg5 : Memref sig .tc .vmem S4x512x1 .f32) (harg5 : arg5.IsWhole)
    (hc0 : ¬isFirst i) (hc1 : isLast i) (x0 : Vec F S4x512x3 .f32) (x1 : Vec F S4x3x512 .f32) (xs : Vec F S4x512x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (step x0 x1 xs) ∗ owns (c : Thread nD τ) arg5 fullShare (step x0 x1 xs)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.mem_cons_self, mem_unit_whole hz3 Facts₀.inb_S4x512x1_S4x512x1_0_0_0 y⟩), View.canon_cons_unit_zero hz3]
    simp only [View.readAt_eq_ld, harg2.read_unread, harg3.read_unread, harg5.read_unread, View.ld_unit_zero (S := S4x512x3) hz3,
      View.ld_unit_zero (S := S4x3x512) hz3, View.ld_unit_zero (S := S4x512x1) hz3, View.readCov_unit_zero (S := S4x512x1) _ hz3]
  iexists _; isplitr
  swap; · iexact HS
  ipureintro
  sl_unfold_words
  rw [View.read_writes_eq_canon _ _ _ (fun y => ⟨_, List.mem_cons_self, mem_unit_whole hz3 Facts₀.inb_S4x512x1_S4x512x1_0_0_0 y⟩), View.canon_cons_unit_zero hz3]
  simp only [View.readAt_eq_ld, harg2.read_unread, harg3.read_unread, harg5.read_unread, View.ld_unit_zero (S := S4x512x3) hz3,
    View.ld_unit_zero (S := S4x3x512) hz3, View.ld_unit_zero (S := S4x512x1) hz3]

end Cert.Kernel.Tile0

end
-- ==== Proof.Bits.Row0.lean ====
/-
  Tile kernel 0 along its grid: what the scratch block (the running minimum of a row of queries) holds after every
  point, the invariant that carries it from one point to the next, and the body's obligation to the pipeline at
  every point. Everything is stated at a parameter `V`, the buffers' contents when the region is entered.
-/
import proofs.«111591_j44418551775684_1_alg».proof.Proof.Gen.Kernel.Launch
import proofs.«111591_j44418551775684_1_alg».proof.Proof.Gen.Kernel.Skeleton
import proofs.«111591_j44418551775684_1_alg».proof.Proof.Gen.Kernel.Points
import proofs.«111591_j44418551775684_1_alg».proof.Proof.Bits.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Tile0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds the point's query block at every point — it is fetched only at the first
    tile of a row, and its block index does not move along the row. -/
theorem found_q {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The searched window's staging buffer holds the point's tile (it is fetched at every point). -/
theorem found_s {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-! ## The running minimum, point by point -/

/-- The scratch block after the body at position `n`: at the first tile of a row one step from +inf, otherwise one
    step from what the previous position left. -/
def accAt (c : Dev nD) : (n : ℕ) → n < cfg0.N → Vec F S4x512x1 .f32
  | 0, hn => step (tile V c 0 ⟨0, hn⟩) (tile V c 1 ⟨0, hn⟩) top
  | n + 1, hn => step (tile V c 0 ⟨n + 1, hn⟩) (tile V c 1 ⟨n + 1, hn⟩)
      (if (n + 1) % 16 = 0 then top else accAt c n (Nat.lt_of_succ_lt hn))

theorem accAt_first (c : Dev nD) (t : Fin cfg0.N) (h : t.val % 16 = 0) :
    accAt V c t.val t.isLt = step (tile V c 0 t) (tile V c 1 t) top := by
  obtain ⟨n, hn⟩ := t
  cases n with
  | zero => rfl
  | succ n => show step _ _ (if (n + 1) % 16 = 0 then top else _) = _; rw [if_pos h]

theorem accAt_next (c : Dev nD) (t : Fin cfg0.N) (h : ¬t.val % 16 = 0) :
    accAt V c t.val t.isLt = step (tile V c 0 t) (tile V c 1 t) (accAt V c (t.val - 1) (Nat.lt_of_le_of_lt (Nat.sub_le _ _) t.isLt)) := by
  obtain ⟨n, hn⟩ := t
  cases n with
  | zero => exact absurd (Nat.zero_mod _) h
  | succ n => show step _ _ (if (n + 1) % 16 = 0 then top else _) = _; rw [if_neg h]; rfl

/-! ## The invariant between points -/

/-- The kernel's scratch block, as a memref. -/
abbrev scr : Memref sig .tc .vmem S4x512x1 .f32 := Memref.whole cc0_scratch0
/-- The scoped buffers this kernel never names (the other region's), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- Before the first point nothing is known of the scratch block; after position `n` it holds `accAt … n`. The other
    scoped buffers and the generator register ride along untouched. -/
def inv (c : Dev nD) : (n : ℕ) → n ≤ cfg0.N → sProp 𝕄
  | 0, _ => Pipeline.ΦA spec0 c
  | n + 1, hn => iprop((owns (c : Thread nD τ) scr fullShare (accAt V c n hn) ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop((owns (c : Thread nD τ) scr fullShare (accAt V c n hn) ∗ others c) ∗ (∃ r, prngReg c r)) := rfl
theorem inv_pos (c : Dev nD) (n : ℕ) (h : n ≤ cfg0.N) (hz : n ≠ 0) :
    inv V c n h = iprop((owns (c : Thread nD τ) scr fullShare (accAt V c (n - 1) (by omega)) ∗ others c) ∗ (∃ r, prngReg c r)) := by
  cases n with
  | zero => exact absurd rfl hz
  | succ n => rfl

/-- What the launch hands a region, with this kernel's scratch block singled out. -/
theorem PhiA_eq (c : Dev nD) :
    (Pipeline.ΦA spec0 c : sProp 𝕄) = iprop(((∃ d, owns (c : Thread nD τ) scr fullShare d) ∗ others c) ∗ (∃ r, prngReg c r)) := by
  unfold Pipeline.ΦA others; rw [scopedRest0_eq]; simp only [scr, owns_whole]; try rfl
theorem PhiA_split (c : Dev nD) :
    (Pipeline.ΦA spec0 c : sProp 𝕄) ⊢ iprop(((∃ d, owns (c : Thread nD τ) scr fullShare d) ∗ others c) ∗ (∃ r, prngReg c r)) := by
  rw [PhiA_eq]
theorem PhiA_join (c : Dev nD) :
    iprop(((∃ d, owns (c : Thread nD τ) scr fullShare d) ∗ others c) ∗ (∃ r, prngReg c r)) ⊢ (Pipeline.ΦA spec0 c : sProp 𝕄) := by
  rw [PhiA_eq]

/-! ## The pipeline's proof data -/

/-- The proof data of this pipeline on core `c`: the arrays as the region finds them; after the body each input's
    buffer at its block and the output's at the running minimum (consulted only at the last tile of a row, where the
    body really stores it); the invariant `inv`; nothing owed; full shares. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => accAt V c t.val t.isLt
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = inv V c t.val (Nat.le_of_lt t.isLt) := by
  dsimp only [dat]; simp only [Fin.coe_castSucc]
theorem after_q (c : Dev nD) (t : Fin cfg0.N) : (dat V c).after 0 t = tile V c 0 t := by dsimp only [dat]
theorem after_s (c : Dev nD) (t : Fin cfg0.N) : (dat V c).after 1 t = tile V c 1 t := by dsimp only [dat]
theorem after_o (c : Dev nD) (t : Fin cfg0.N) : (dat V c).after 2 t = accAt V c t.val t.isLt := by dsimp only [dat]
theorem before_q (c : Dev nD) (t : Fin cfg0.N) (d) : (dat V c).before 0 t d = tile V c 0 t :=
  found_q V (dat V c) (A_eq V c 0) (after_q V c) t d
theorem before_s (c : Dev nD) (t : Fin cfg0.N) (d) : (dat V c).before 1 t d = tile V c 1 t :=
  found_s V (dat V c) (A_eq V c 1) (after_s V c) t d

/-! ## Where the output window is idle -/

theorem live_q : ∀ t : Fin cfg0.N, cfg0.idle 0 (grid0.coords t) = false := by decide +kernel
theorem live_s : ∀ t : Fin cfg0.N, cfg0.idle 1 (grid0.coords t) = false := by decide +kernel
theorem idle_o : ∀ t : Fin cfg0.N, ¬isLast (grid0.coords t) → cfg0.idle 2 (grid0.coords t) = true := by decide +kernel
theorem noFlush_o : ∀ t : Fin cfg0.N, ¬isLast (grid0.coords t) → (cfg0.win 2).flush t = false := by decide +kernel
theorem live_o : ∀ t : Fin cfg0.N, isLast (grid0.coords t) → cfg0.idle 2 (grid0.coords t) = false := by decide +kernel

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point. Its position in the row decides the case; the invariant hands it the scratch block at what
    the previous point left (at anything before the first point) and takes it back one step lower. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_q, before_s]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (st0_0 t) fullShare ((dat V c).after 0 t) from by
    unfold Dat.leavesExact; rw [live_q t], after_q]
  rw [show (dat V c).leavesExact 1 t = owns (c : Thread nD τ) (st0_1 t) fullShare ((dat V c).after 1 t) from by
    unfold Dat.leavesExact; rw [live_s t], after_s]
  rw [inv_castSucc V c t]
  have hN : t.val < 256 := lt_of_lt_of_eq t.isLt (show cfg0.N = 256 from N_0)
  by_cases h0 : t.val % 16 = 0
  · have h1 : ¬t.val % 16 = 15 := by omega
    have hl : ¬isLast (grid0.coords t) := fun h => h1 ((isLast_iff t).mp h)
    rw [Dat.leavesExact_idle (dat V c) 2 t (idle_o t hl) (noFlush_o t hl)]
    rw [accAt_first V c t h0]
    by_cases hz : t.val = 0
    · rw [inv_zero V c _ _ hz]
      iintro ⟨HP, Ho, ⟨%d0, H0⟩, ⟨%d1, H1⟩, H2⟩
      have hsp := PhiA_split (F := F) c
      ihave HP' := hsp $$ HP
      icases HP' with ⟨⟨HS, Hoth⟩, Hg⟩
      iapply (run_first c Set.univ (grid0.coords t) _ _ _ _ _ _ _ _ ((isFirst_iff t).mpr h0) hl (tile V c 0 t) (tile V c 1 t) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [inv_pos V c _ _ hz]
      iintro ⟨⟨⟨HS, Hoth⟩, Hg⟩, Ho, ⟨%d0, H0⟩, ⟨%d1, H1⟩, H2⟩
      iapply (run_first c Set.univ (grid0.coords t) _ _ _ _ _ _ _ _ ((isFirst_iff t).mpr h0) hl (tile V c 0 t) (tile V c 1 t) _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hz : t.val ≠ 0 := fun h => h0 (by rw [h])
    have hf : ¬isFirst (grid0.coords t) := fun h => h0 ((isFirst_iff t).mp h)
    rw [inv_pos V c _ _ hz, accAt_next V c t h0]
    by_cases h1 : t.val % 16 = 15
    · have hl : isLast (grid0.coords t) := (isLast_iff t).mpr h1
      rw [show (dat V c).leavesExact 2 t = owns (c : Thread nD τ) (st0_2 t) fullShare ((dat V c).after 2 t) from by
        unfold Dat.leavesExact; rw [live_o t hl], after_o, accAt_next V c t h0]
      iintro ⟨⟨⟨HS, Hoth⟩, Hg⟩, Ho, ⟨%d0, H0⟩, ⟨%d1, H1⟩, ⟨%d2, H2⟩⟩
      iapply (run_last c Set.univ (grid0.coords t) _ _ _ _ _ _ _ _ hf hl (tile V c 0 t) (tile V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hl : ¬isLast (grid0.coords t) := fun h => h1 ((isLast_iff t).mp h)
      rw [Dat.leavesExact_idle (dat V c) 2 t (idle_o t hl) (noFlush_o t hl)]
      iintro ⟨⟨⟨HS, Hoth⟩, Hg⟩, Ho, ⟨%d0, H0⟩, ⟨%d1, H1⟩, H2⟩
      iapply (run_mid c Set.univ (grid0.coords t) _ _ _ _ _ _ _ _ hf hl (tile V c 0 t) (tile V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  rw [show (dat V c).Φ 0 = inv V c 0 (Nat.zero_le _) from rfl, inv_zero V c 0 _ rfl]

/-- After the last point the invariant gives it back, the scratch block's contents forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 256 := N_0; omega)]
  iintro ⟨⟨HS, Hoth⟩, Hg⟩
  iapply (PhiA_join c)
  isplitl [HS Hoth]
  · isplitl [HS]; · iexists _; iexact HS
    iexact Hoth
  iexact Hg

end Cert.Kernel.Tile0

end
-- ==== Proof.Bits.Body1.lean ====
/-
  The body of tile kernel 1 at one grid point, case by case. The grid is 16 x 16; its second coordinate walks the
  512-wide tiles of the point set that is searched. At the first tile of a row the running minimum (the scratch
  block) is reset to +inf, at every tile it is lowered by the tile's row minima of the squared distances, and at the
  last tile of a row it is copied to the output block.
-/
import proofs.«111591_j44418551775684_1_alg».proof.Proof.Gen.Kernel.Launch
import proofs.«111591_j44418551775684_1_alg».proof.Proof.Gen.Kernel.Skeleton
import proofs.«111591_j44418551775684_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Tile1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offset of every whole-block access of the body. -/
theorem hz3 : (![0, 0, 0] : Fin 3 → Nat) = fun _ => 0 := by funext a; fin_cases a <;> rfl

/-- A rectangle at offset zero of the shape's own extents holds every index. -/
theorem mem_unit_whole {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- "This is the first tile of its row": the scalar chain of the body's first conditional. -/
abbrev isFirst (i : grid1.Coords) : Prop :=
  (Scalar.cmpi .ne (Scalar.extui (Scalar.cmpi .eq (BitVec.ofNat 32 (i 1).val) 0#32)) 0#32) = 1#1
/-- "This is the last tile of its row": the body's second conditional. -/
abbrev isLast (i : grid1.Coords) : Prop := k1_cond2 i = 1#1

theorem isFirst_iff : ∀ t : Fin cfg1.N, isFirst (grid1.coords t) ↔ t.val % 16 = 0 :=
  (by decide +kernel : ∀ t : Fin grid1.N, isFirst (grid1.coords t) ↔ t.val % 16 = 0)
theorem isLast_iff : ∀ t : Fin cfg1.N, isLast (grid1.coords t) ↔ t.val % 16 = 15 :=
  (by decide +kernel : ∀ t : Fin grid1.N, isLast (grid1.coords t) ↔ t.val % 16 = 15)

/-- One step of the running minimum: the previous minima `prev` lowered by the row minima, over the tile `x1`,
    of |a|² + |b|² − 2 a·b for the query rows `x0`. -/
abbrev step (x0 : Vec F S4x512x3 .f32) (x1 : Vec F S4x3x512 .f32) (prev : Vec F S4x512x1 .f32) : Vec F S4x512x1 .f32 :=
  k1_pay2 x0 x1 prev
/-- The reset value: +inf everywhere. -/
abbrev top : Vec F S4x512x1 .f32 := k1_pay1 (F := F)

set_option maxHeartbeats 1000000 in
/-- First tile of a row, not the last: the scratch block, whatever it held, ends at one step from +inf; the inputs
    are only read and the output block is not touched. -/
theorem run_first (c : Dev nD) (E : Set ℕ) (i : grid1.Coords)
    (arg2 : Memref sig .tc .vmem S4x512x3 .f32) (harg2 : arg2.IsWhole) (arg3 : Memref sig .tc .vmem S4x3x512 .f32) (harg3 : arg3.IsWhole)
    (arg4 : Memref sig .tc .vmem S4x512x1 .f32) (harg4 : arg4.IsWhole) (arg5 : Memref sig .tc .vmem S4x512x1 .f32) (harg5 : arg5.IsWhole)
    (hc0 : isFirst i) (hc1 : ¬isLast i) (x0 : Vec F S4x512x3 .f32) (x1 : Vec F S4x3x512 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (step x0 x1 top)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self, mem_unit_whole hz3 Facts₀.inb_S4x512x1_S4x512x1_0_0_0 y⟩), View.canon_cons_unit_zero hz3]
  simp only [View.readAt_eq_ld, harg2.read_unread, harg3.read_unread, View.ld_unit_zero (S := S4x512x3) hz3,
    View.ld_unit_zero (S := S4x3x512) hz3, View.readCov_unit_zero (S := S4x512x1) _ hz3]

set_option maxHeartbeats 1000000 in
/-- A tile in the middle of a row: the scratch block goes from `xs` to one step below it. -/
theorem run_mid (c : Dev nD) (E : Set ℕ) (i : grid1.Coords)
    (arg2 : Memref sig .tc .vmem S4x512x3 .f32) (harg2 : arg2.IsWhole) (arg3 : Memref sig .tc .vmem S4x3x512 .f32) (harg3 : arg3.IsWhole)
    (arg4 : Memref sig .tc .vmem S4x512x1 .f32) (harg4 : arg4.IsWhole) (arg5 : Memref sig .tc .vmem S4x512x1 .f32) (harg5 : arg5.IsWhole)
    (hc0 : ¬isFirst i) (hc1 : ¬isLast i) (x0 : Vec F S4x512x3 .f32) (x1 : Vec F S4x3x512 .f32) (xs : Vec F S4x512x1 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (step x0 x1 xs)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self, mem_unit_whole hz3 Facts₀.inb_S4x512x1_S4x512x1_0_0_0 y⟩), View.canon_cons_unit_zero hz3]
  simp only [View.readAt_eq_ld, harg2.read_unread, harg3.read_unread, harg5.read_unread, View.ld_unit_zero (S := S4x512x3) hz3,
    View.ld_unit_zero (S := S4x3x512) hz3, View.ld_unit_zero (S := S4x512x1) hz3]

set_option maxHeartbeats 1000000 in
/-- The last tile of a row (never the first): the scratch block goes one step below `xs`, and the output block,
    whatever it held, receives the same minima. -/
theorem run_last (c : Dev nD) (E : Set ℕ) (i : grid1.Coords)
    (arg2 : Memref sig .tc .vmem S4x512x3 .f32) (harg2 : arg2.IsWhole) (arg3 : Memref sig .tc .vmem S4x3x512 .f32) (harg3 : arg3.IsWhole)
    (arg4 : Memref sig .tc .vmem S4x512x1 .f32) (harg4 : arg4.IsWhole) (arg5 : Memref sig .tc .vmem S4x512x1 .f32) (harg5 : arg5.IsWhole)
    (hc0 : ¬isFirst i) (hc1 : isLast i) (x0 : Vec F S4x512x3 .f32) (x1 : Vec F S4x3x512 .f32) (xs : Vec F S4x512x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (step x0 x1 xs) ∗ owns (c : Thread nD τ) arg5 fullShare (step x0 x1 xs)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.mem_cons_self, mem_unit_whole hz3 Facts₀.inb_S4x512x1_S4x512x1_0_0_0 y⟩), View.canon_cons_unit_zero hz3]
    simp only [View.readAt_eq_ld, harg2.read_unread, harg3.read_unread, harg5.read_unread, View.ld_unit_zero (S := S4x512x3) hz3,
      View.ld_unit_zero (S := S4x3x512) hz3, View.ld_unit_zero (S := S4x512x1) hz3, View.readCov_unit_zero (S := S4x512x1) _ hz3]
  iexists _; isplitr
  swap; · iexact HS
  ipureintro
  sl_unfold_words
  rw [View.read_writes_eq_canon _ _ _ (fun y => ⟨_, List.mem_cons_self, mem_unit_whole hz3 Facts₀.inb_S4x512x1_S4x512x1_0_0_0 y⟩), View.canon_cons_unit_zero hz3]
  simp only [View.readAt_eq_ld, harg2.read_unread, harg3.read_unread, harg5.read_unread, View.ld_unit_zero (S := S4x512x3) hz3,
    View.ld_unit_zero (S := S4x3x512) hz3, View.ld_unit_zero (S := S4x512x1) hz3]

end Cert.Kernel.Tile1

end
-- ==== Proof.Bits.Row1.lean ====
/-
  Tile kernel 1 along its grid: what the scratch block (the running minimum of a row of queries) holds after every
  point, the invariant that carries it from one point to the next, and the body's obligation to the pipeline at
  every point. Everything is stated at a parameter `V`, the buffers' contents when the region is entered.
-/
import proofs.«111591_j44418551775684_1_alg».proof.Proof.Gen.Kernel.Launch
import proofs.«111591_j44418551775684_1_alg».proof.Proof.Gen.Kernel.Skeleton
import proofs.«111591_j44418551775684_1_alg».proof.Proof.Gen.Kernel.Points
import proofs.«111591_j44418551775684_1_alg».proof.Proof.Bits.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Tile1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's query block at every point — it is fetched only at the first
    tile of a row, and its block index does not move along the row. -/
theorem found_q {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The searched window's staging buffer holds the point's tile (it is fetched at every point). -/
theorem found_s {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-! ## The running minimum, point by point -/

/-- The scratch block after the body at position `n`: at the first tile of a row one step from +inf, otherwise one
    step from what the previous position left. -/
def accAt (c : Dev nD) : (n : ℕ) → n < cfg1.N → Vec F S4x512x1 .f32
  | 0, hn => step (tile V c 0 ⟨0, hn⟩) (tile V c 1 ⟨0, hn⟩) top
  | n + 1, hn => step (tile V c 0 ⟨n + 1, hn⟩) (tile V c 1 ⟨n + 1, hn⟩)
      (if (n + 1) % 16 = 0 then top else accAt c n (Nat.lt_of_succ_lt hn))

theorem accAt_first (c : Dev nD) (t : Fin cfg1.N) (h : t.val % 16 = 0) :
    accAt V c t.val t.isLt = step (tile V c 0 t) (tile V c 1 t) top := by
  obtain ⟨n, hn⟩ := t
  cases n with
  | zero => rfl
  | succ n => show step _ _ (if (n + 1) % 16 = 0 then top else _) = _; rw [if_pos h]

theorem accAt_next (c : Dev nD) (t : Fin cfg1.N) (h : ¬t.val % 16 = 0) :
    accAt V c t.val t.isLt = step (tile V c 0 t) (tile V c 1 t) (accAt V c (t.val - 1) (Nat.lt_of_le_of_lt (Nat.sub_le _ _) t.isLt)) := by
  obtain ⟨n, hn⟩ := t
  cases n with
  | zero => exact absurd (Nat.zero_mod _) h
  | succ n => show step _ _ (if (n + 1) % 16 = 0 then top else _) = _; rw [if_neg h]; rfl

/-! ## The invariant between points -/

/-- The kernel's scratch block, as a memref. -/
abbrev scr : Memref sig .tc .vmem S4x512x1 .f32 := Memref.whole cc1_scratch0
/-- The scoped buffers this kernel never names (the other region's), each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- Before the first point nothing is known of the scratch block; after position `n` it holds `accAt … n`. The other
    scoped buffers and the generator register ride along untouched. -/
def inv (c : Dev nD) : (n : ℕ) → n ≤ cfg1.N → sProp 𝕄
  | 0, _ => Pipeline.ΦA spec1 c
  | n + 1, hn => iprop((owns (c : Thread nD τ) scr fullShare (accAt V c n hn) ∗ others c) ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop((owns (c : Thread nD τ) scr fullShare (accAt V c n hn) ∗ others c) ∗ (∃ r, prngReg c r)) := rfl
theorem inv_pos (c : Dev nD) (n : ℕ) (h : n ≤ cfg1.N) (hz : n ≠ 0) :
    inv V c n h = iprop((owns (c : Thread nD τ) scr fullShare (accAt V c (n - 1) (by omega)) ∗ others c) ∗ (∃ r, prngReg c r)) := by
  cases n with
  | zero => exact absurd rfl hz
  | succ n => rfl

/-- What the launch hands a region: the scoped buffers no window of this kernel stages (this kernel's scratch block
    is listed last among them) and the generator register. -/
theorem PhiA_eq (c : Dev nD) :
    (Pipeline.ΦA spec1 c : sProp 𝕄) = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scr fullShare d)) ∗ (∃ r, prngReg c r)) := by
  unfold Pipeline.ΦA; rw [scopedRest1_eq]; simp only [scr, owns_whole]; try rfl
theorem PhiA_split (c : Dev nD) :
    (Pipeline.ΦA spec1 c : sProp 𝕄) ⊢ iprop(((∃ d, owns (c : Thread nD τ) scr fullShare d) ∗ others c) ∗ (∃ r, prngReg c r)) := by
  rw [PhiA_eq]; unfold others
  iintro ⟨⟨H1, H2, H3, H4, H5, H6, H7, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg
theorem PhiA_join (c : Dev nD) :
    iprop(((∃ d, owns (c : Thread nD τ) scr fullShare d) ∗ others c) ∗ (∃ r, prngReg c r)) ⊢ (Pipeline.ΦA spec1 c : sProp 𝕄) := by
  rw [PhiA_eq]; unfold others
  iintro ⟨⟨HS, H1, H2, H3, H4, H5, H6, H7⟩, Hg⟩
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## The pipeline's proof data -/

/-- The proof data of this pipeline on core `c`: the arrays as the region finds them; after the body each input's
    buffer at its block and the output's at the running minimum (consulted only at the last tile of a row, where the
    body really stores it); the invariant `inv`; nothing owed; full shares. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => accAt V c t.val t.isLt
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) :
    (dat V c).Φ t.castSucc = inv V c t.val (Nat.le_of_lt t.isLt) := by
  dsimp only [dat]; simp only [Fin.coe_castSucc]
theorem after_q (c : Dev nD) (t : Fin cfg1.N) : (dat V c).after 0 t = tile V c 0 t := by dsimp only [dat]
theorem after_s (c : Dev nD) (t : Fin cfg1.N) : (dat V c).after 1 t = tile V c 1 t := by dsimp only [dat]
theorem after_o (c : Dev nD) (t : Fin cfg1.N) : (dat V c).after 2 t = accAt V c t.val t.isLt := by dsimp only [dat]
theorem before_q (c : Dev nD) (t : Fin cfg1.N) (d) : (dat V c).before 0 t d = tile V c 0 t :=
  found_q V (dat V c) (A_eq V c 0) (after_q V c) t d
theorem before_s (c : Dev nD) (t : Fin cfg1.N) (d) : (dat V c).before 1 t d = tile V c 1 t :=
  found_s V (dat V c) (A_eq V c 1) (after_s V c) t d

/-! ## Where the output window is idle -/

theorem live_q : ∀ t : Fin cfg1.N, cfg1.idle 0 (grid1.coords t) = false := by decide +kernel
theorem live_s : ∀ t : Fin cfg1.N, cfg1.idle 1 (grid1.coords t) = false := by decide +kernel
theorem idle_o : ∀ t : Fin cfg1.N, ¬isLast (grid1.coords t) → cfg1.idle 2 (grid1.coords t) = true := by decide +kernel
theorem noFlush_o : ∀ t : Fin cfg1.N, ¬isLast (grid1.coords t) → (cfg1.win 2).flush t = false := by decide +kernel
theorem live_o : ∀ t : Fin cfg1.N, isLast (grid1.coords t) → cfg1.idle 2 (grid1.coords t) = false := by decide +kernel

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point. Its position in the row decides the case; the invariant hands it the scratch block at what
    the previous point left (at anything before the first point) and takes it back one step lower. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_s]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (st1_0 t) fullShare ((dat V c).after 0 t) from by
    unfold Dat.leavesExact; rw [live_q t], after_q]
  rw [show (dat V c).leavesExact 1 t = owns (c : Thread nD τ) (st1_1 t) fullShare ((dat V c).after 1 t) from by
    unfold Dat.leavesExact; rw [live_s t], after_s]
  rw [inv_castSucc V c t]
  have hN : t.val < 256 := lt_of_lt_of_eq t.isLt (show cfg1.N = 256 from N_1)
  by_cases h0 : t.val % 16 = 0
  · have h1 : ¬t.val % 16 = 15 := by omega
    have hl : ¬isLast (grid1.coords t) := fun h => h1 ((isLast_iff t).mp h)
    rw [Dat.leavesExact_idle (dat V c) 2 t (idle_o t hl) (noFlush_o t hl)]
    rw [accAt_first V c t h0]
    by_cases hz : t.val = 0
    · rw [inv_zero V c _ _ hz]
      iintro ⟨HP, Ho, ⟨%d0, H0⟩, ⟨%d1, H1⟩, H2⟩
      have hsp := PhiA_split (F := F) c
      ihave HP' := hsp $$ HP
      icases HP' with ⟨⟨HS, Hoth⟩, Hg⟩
      iapply (run_first c Set.univ (grid1.coords t) _ _ _ _ _ _ _ _ ((isFirst_iff t).mpr h0) hl (tile V c 0 t) (tile V c 1 t) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [inv_pos V c _ _ hz]
      iintro ⟨⟨⟨HS, Hoth⟩, Hg⟩, Ho, ⟨%d0, H0⟩, ⟨%d1, H1⟩, H2⟩
      iapply (run_first c Set.univ (grid1.coords t) _ _ _ _ _ _ _ _ ((isFirst_iff t).mpr h0) hl (tile V c 0 t) (tile V c 1 t) _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hz : t.val ≠ 0 := fun h => h0 (by rw [h])
    have hf : ¬isFirst (grid1.coords t) := fun h => h0 ((isFirst_iff t).mp h)
    rw [inv_pos V c _ _ hz, accAt_next V c t h0]
    by_cases h1 : t.val % 16 = 15
    · have hl : isLast (grid1.coords t) := (isLast_iff t).mpr h1
      rw [show (dat V c).leavesExact 2 t = owns (c : Thread nD τ) (st1_2 t) fullShare ((dat V c).after 2 t) from by
        unfold Dat.leavesExact; rw [live_o t hl], after_o, accAt_next V c t h0]
      iintro ⟨⟨⟨HS, Hoth⟩, Hg⟩, Ho, ⟨%d0, H0⟩, ⟨%d1, H1⟩, ⟨%d2, H2⟩⟩
      iapply (run_last c Set.univ (grid1.coords t) _ _ _ _ _ _ _ _ hf hl (tile V c 0 t) (tile V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hl : ¬isLast (grid1.coords t) := fun h => h1 ((isLast_iff t).mp h)
      rw [Dat.leavesExact_idle (dat V c) 2 t (idle_o t hl) (noFlush_o t hl)]
      iintro ⟨⟨⟨HS, Hoth⟩, Hg⟩, Ho, ⟨%d0, H0⟩, ⟨%d1, H1⟩, H2⟩
      iapply (run_mid c Set.univ (grid1.coords t) _ _ _ _ _ _ _ _ hf hl (tile V c 0 t) (tile V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]

/-- After the last point the invariant gives it back, the scratch block's contents forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 256 := N_1; omega)]
  iintro ⟨⟨HS, Hoth⟩, Hg⟩
  iapply (PhiA_join c)
  isplitl [HS Hoth]
  · isplitl [HS]; · iexists _; iexact HS
    iexact Hoth
  iexact Hg

end Cert.Kernel.Tile1

end
-- ==== Proof.Bits.Run.lean ====
/-
  The whole program: two transposes, tile kernel 0, a reshape, tile kernel 1, and the host tail that averages the two
  vectors of minima and adds the averages. The buffers' contents at every boundary between these five stretches are
  a fold from the launch memory; each kernel region hands its arrays to its pipeline and takes them back at what the
  write-backs leave; every weakly fair execution ends with every unscoped buffer at the last boundary's contents.
-/
import proofs.«111591_j44418551775684_1_alg».proof.Proof.Gen.Kernel.Launch
import proofs.«111591_j44418551775684_1_alg».proof.Proof.Gen.Kernel.Skeleton
import proofs.«111591_j44418551775684_1_alg».proof.Proof.Gen.Kernel.Points
import proofs.«111591_j44418551775684_1_alg».proof.Proof.Bits.Row0
import proofs.«111591_j44418551775684_1_alg».proof.Proof.Bits.Row1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the two transposes (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (Tile0.dat (V1 m ρ) c).arrAt w cfg0.N
theorem W2_arr (c : Dev nD) (w : Fin cfg0.W) :
    W2 m ρ c (Proc.devRef .tc (Pipeline.arrRef spec0 w)) = (Tile0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Tile0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the first minima (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (Tile1.dat (V3 m ρ) c).arrAt w cfg1.N
theorem W4_arr (c : Dev nD) (w : Fin cfg1.W) :
    W4 m ρ c (Proc.devRef .tc (Pipeline.arrRef spec1 w)) = (Tile1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Tile1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host tail: the end. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Tile0.dat (V1 m ρ) c
  | ⟨1, _⟩ => fun c => Tile1.dat (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

/-- What region 0's launch hands over makes the invariant before the first point, -/
theorem enter0 (V : (c : Dev nD) → (b : Ref sig .tc) → Buf (Elt F) ((c : Thread nD τ).loc b)) (c : Dev nD) (P : sProp 𝕄) :
    (iprop((∃ r, prngReg c r) ∗ P ∗ Pipeline.scopedRest spec0 c) : sProp 𝕄) ⊢ (Tile0.dat V c).Φ 0 := by
  have h := Tile0.inv_in V c
  unfold Pipeline.ΦA at h
  iintro ⟨Hp, -, Hr⟩
  iapply h
  isplitl [Hr]; · iexact Hr
  iexact Hp
/-- and the invariant after the last point gives it back. -/
theorem leave0 (V : (c : Dev nD) → (b : Ref sig .tc) → Buf (Elt F) ((c : Thread nD τ).loc b)) (c : Dev nD) :
    (Tile0.dat V c).Φ (Fin.last cfg0.N) ⊢ (iprop((∃ r, prngReg c r) ∗ BI.emp ∗ Pipeline.scopedRest spec0 c) : sProp 𝕄) := by
  have h := Tile0.inv_out V c
  unfold Pipeline.ΦA at h
  iintro H
  ihave H' := h $$ H
  icases H' with ⟨Hr, Hp⟩
  isplitl [Hp]; · iexact Hp
  isplitr; · iempintro
  iexact Hr

/-- What region 1's launch hands over makes the invariant before the first point, -/
theorem enter1 (V : (c : Dev nD) → (b : Ref sig .tc) → Buf (Elt F) ((c : Thread nD τ).loc b)) (c : Dev nD) (P : sProp 𝕄) :
    (iprop((∃ r, prngReg c r) ∗ P ∗ Pipeline.scopedRest spec1 c) : sProp 𝕄) ⊢ (Tile1.dat V c).Φ 0 := by
  have h := Tile1.inv_in V c
  unfold Pipeline.ΦA at h
  iintro ⟨Hp, -, Hr⟩
  iapply h
  isplitl [Hr]; · iexact Hr
  iexact Hp
/-- and the invariant after the last point gives it back. -/
theorem leave1 (V : (c : Dev nD) → (b : Ref sig .tc) → Buf (Elt F) ((c : Thread nD τ).loc b)) (c : Dev nD) :
    (Tile1.dat V c).Φ (Fin.last cfg1.N) ⊢ (iprop((∃ r, prngReg c r) ∗ BI.emp ∗ Pipeline.scopedRest spec1 c) : sProp 𝕄) := by
  have h := Tile1.inv_out V c
  unfold Pipeline.ΦA at h
  iintro H
  ihave H' := h $$ H
  icases H' with ⟨Hr, Hp⟩
  isplitl [Hp]; · iexact Hp
  isplitr; · iempintro
  iexact Hr

set_option backward.isDefEq.respectTransparency.types false in
/-- Region 0 over the thread state: entered with every unscoped buffer at `W1`, left with them at `W2`.
    Its arrays are split out of the unscoped buffers and put back at what the write-backs leave; the generator
    register goes into the invariant and comes back; the core owes nothing; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Tile0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := enter0 (V1 m ρ) c _
  hout c := by
    rw [Pipeline.ownSems0_none]
    exact leave0 (V1 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`.
    Its arrays are split out of the unscoped buffers and put back at what the write-backs leave; the generator
    register goes into the invariant and comes back; the core owes nothing; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Tile1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := enter1 (V3 m ρ) c _
  hout c := by
    rw [Pipeline.ownSems0_none]
    exact leave1 (V3 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final memory holds every unscoped buffer at the last boundary's contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => (show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W) from by
      iintro ⟨Hh, Hp, Ho⟩
      isplitl [Hh Hp]
      · isplitl [Hh]; · iexact Hh
        iexact Hp
      iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Whole

end
-- ==== Proof.Bits.Ends.lean ====
/-
  What the whole run leaves in the argument arrays: no host operation writes an argument, and a kernel region
  either reads it through an input window or bypasses it, so the fold of the buffers' contents walks each
  argument back to the launch memory. Hence the frame: every execution terminates with the arguments as launched.
-/
import proofs.«111591_j44418551775684_1_alg».proof.Proof.Gen.Kernel.Launch
import proofs.«111591_j44418551775684_1_alg».proof.Proof.Gen.Kernel.Skeleton
import proofs.«111591_j44418551775684_1_alg».proof.Proof.Gen.Kernel.Points
import proofs.«111591_j44418551775684_1_alg».proof.Proof.Gen.Kernel.Regions
import proofs.«111591_j44418551775684_1_alg».proof.Proof.Bits.Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((Tile0.dat (V1 m ρ) c).arrAt_in 0 rfl _).trans (Tile0.A_eq (V1 m ρ) c 0))
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := (W4_arr m ρ c 0).trans (((Tile1.dat (V3 m ρ) c).arrAt_in 0 rfl _).trans (Tile1.A_eq (V3 m ρ) c 0))
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run m ρ)

end Cert.Kernel.Whole

end
-- ==== Proof.Ideal.Body0.lean ====
/-
  The body of tile kernel 0 at one grid point, case by case. The grid is 16 x 16; its second coordinate walks the
  512-wide tiles of the point set that is searched. At the first tile of a row the running minimum (the scratch
  block) is reset to +inf, at every tile it is lowered by the tile's row minima of the squared distances, and at the
  last tile of a row it is copied to the output block.
-/
import proofs.«111591_j44418551775684_1_alg».proof.Proof.Gen.KernelIdeal.Launch
import proofs.«111591_j44418551775684_1_alg».proof.Proof.Gen.KernelIdeal.Skeleton
import proofs.«111591_j44418551775684_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Tile0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offset of every whole-block access of the body. -/
theorem hz3 : (![0, 0, 0] : Fin 3 → Nat) = fun _ => 0 := by funext a; fin_cases a <;> rfl

/-- A rectangle at offset zero of the shape's own extents holds every index. -/
theorem mem_unit_whole {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- "This is the first tile of its row": the scalar chain of the body's first conditional. -/
abbrev isFirst (i : grid0.Coords) : Prop :=
  (Scalar.cmpi .ne (Scalar.extui (Scalar.cmpi .eq (BitVec.ofNat 32 (i 1).val) 0#32)) 0#32) = 1#1
/-- "This is the last tile of its row": the body's second conditional. -/
abbrev isLast (i : grid0.Coords) : Prop := k0_cond2 i = 1#1

theorem isFirst_iff : ∀ t : Fin cfg0.N, isFirst (grid0.coords t) ↔ t.val % 16 = 0 :=
  (by decide +kernel : ∀ t : Fin grid0.N, isFirst (grid0.coords t) ↔ t.val % 16 = 0)
theorem isLast_iff : ∀ t : Fin cfg0.N, isLast (grid0.coords t) ↔ t.val % 16 = 15 :=
  (by decide +kernel : ∀ t : Fin grid0.N, isLast (grid0.coords t) ↔ t.val % 16 = 15)

/-- One step of the running minimum: the previous minima `prev` lowered by the row minima, over the tile `x1`,
    of |a|² + |b|² − 2 a·b for the query rows `x0`. -/
abbrev step (x0 : Vec F S4x512x3 .f32) (x1 : Vec F S4x3x512 .f32) (prev : Vec F S4x512x1 .f32) : Vec F S4x512x1 .f32 :=
  k0_pay2 x0 x1 prev
/-- The reset value: +inf everywhere. -/
abbrev top : Vec F S4x512x1 .f32 := k0_pay1 (F := F)

set_option maxHeartbeats 1000000 in
/-- First tile of a row, not the last: the scratch block, whatever it held, ends at one step from +inf; the inputs
    are only read and the output block is not touched. -/
theorem run_first (c : Dev nD) (E : Set ℕ) (i : grid0.Coords)
    (arg2 : Memref sig .tc .vmem S4x512x3 .f32) (harg2 : arg2.IsWhole) (arg3 : Memref sig .tc .vmem S4x3x512 .f32) (harg3 : arg3.IsWhole)
    (arg4 : Memref sig .tc .vmem S4x512x1 .f32) (harg4 : arg4.IsWhole) (arg5 : Memref sig .tc .vmem S4x512x1 .f32) (harg5 : arg5.IsWhole)
    (hc0 : isFirst i) (hc1 : ¬isLast i) (x0 : Vec F S4x512x3 .f32) (x1 : Vec F S4x3x512 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (step x0 x1 top)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self, mem_unit_whole hz3 Facts₀.inb_S4x512x1_S4x512x1_0_0_0 y⟩), View.canon_cons_unit_zero hz3]
  simp only [View.readAt_eq_ld, harg2.read_unread, harg3.read_unread, View.ld_unit_zero (S := S4x512x3) hz3,
    View.ld_unit_zero (S := S4x3x512) hz3, View.readCov_unit_zero (S := S4x512x1) _ hz3]

set_option maxHeartbeats 1000000 in
/-- A tile in the middle of a row: the scratch block goes from `xs` to one step below it. -/
theorem run_mid (c : Dev nD) (E : Set ℕ) (i : grid0.Coords)
    (arg2 : Memref sig .tc .vmem S4x512x3 .f32) (harg2 : arg2.IsWhole) (arg3 : Memref sig .tc .vmem S4x3x512 .f32) (harg3 : arg3.IsWhole)
    (arg4 : Memref sig .tc .vmem S4x512x1 .f32) (harg4 : arg4.IsWhole) (arg5 : Memref sig .tc .vmem S4x512x1 .f32) (harg5 : arg5.IsWhole)
    (hc0 : ¬isFirst i) (hc1 : ¬isLast i) (x0 : Vec F S4x512x3 .f32) (x1 : Vec F S4x3x512 .f32) (xs : Vec F S4x512x1 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (step x0 x1 xs)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self, mem_unit_whole hz3 Facts₀.inb_S4x512x1_S4x512x1_0_0_0 y⟩), View.canon_cons_unit_zero hz3]
  simp only [View.readAt_eq_ld, harg2.read_unread, harg3.read_unread, harg5.read_unread, View.ld_unit_zero (S := S4x512x3) hz3,
    View.ld_unit_zero (S := S4x3x512) hz3, View.ld_unit_zero (S := S4x512x1) hz3]

set_option maxHeartbeats 1000000 in
/-- The last tile of a row (never the first): the scratch block goes one step below `xs`, and the output block,
    whatever it held, receives the same minima. -/
theorem run_last (c : Dev nD) (E : Set ℕ) (i : grid0.Coords)
    (arg2 : Memref sig .tc .vmem S4x512x3 .f32) (harg2 : arg2.IsWhole) (arg3 : Memref sig .tc .vmem S4x3x512 .f32) (harg3 : arg3.IsWhole)
    (arg4 : Memref sig .tc .vmem S4x512x1 .f32) (harg4 : arg4.IsWhole) (arg5 : Memref sig .tc .vmem S4x512x1 .f32) (harg5 : arg5.IsWhole)
    (hc0 : ¬isFirst i) (hc1 : isLast i) (x0 : Vec F S4x512x3 .f32) (x1 : Vec F S4x3x512 .f32) (xs : Vec F S4x512x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (step x0 x1 xs) ∗ owns (c : Thread nD τ) arg5 fullShare (step x0 x1 xs)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.mem_cons_self, mem_unit_whole hz3 Facts₀.inb_S4x512x1_S4x512x1_0_0_0 y⟩), View.canon_cons_unit_zero hz3]
    simp only [View.readAt_eq_ld, harg2.read_unread, harg3.read_unread, harg5.read_unread, View.ld_unit_zero (S := S4x512x3) hz3,
      View.ld_unit_zero (S := S4x3x512) hz3, View.ld_unit_zero (S := S4x512x1) hz3, View.readCov_unit_zero (S := S4x512x1) _ hz3]
  iexists _; isplitr
  swap; · iexact HS
  ipureintro
  sl_unfold_words
  rw [View.read_writes_eq_canon _ _ _ (fun y => ⟨_, List.mem_cons_self, mem_unit_whole hz3 Facts₀.inb_S4x512x1_S4x512x1_0_0_0 y⟩), View.canon_cons_unit_zero hz3]
  simp only [View.readAt_eq_ld, harg2.read_unread, harg3.read_unread, harg5.read_unread, View.ld_unit_zero (S := S4x512x3) hz3,
    View.ld_unit_zero (S := S4x3x512) hz3, View.ld_unit_zero (S := S4x512x1) hz3]

end Cert.KernelIdeal.Tile0

end
-- ==== Proof.Ideal.Row0.lean ====
/-
  Tile kernel 0 along its grid: what the scratch block (the running minimum of a row of queries) holds after every
  point, the invariant that carries it from one point to the next, and the body's obligation to the pipeline at
  every point. Everything is stated at a parameter `V`, the buffers' contents when the region is entered.
-/
import proofs.«111591_j44418551775684_1_alg».proof.Proof.Gen.KernelIdeal.Launch
import proofs.«111591_j44418551775684_1_alg».proof.Proof.Gen.KernelIdeal.Skeleton
import proofs.«111591_j44418551775684_1_alg».proof.Proof.Gen.KernelIdeal.Points
import proofs.«111591_j44418551775684_1_alg».proof.Proof.Ideal.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Tile0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds the point's query block at every point — it is fetched only at the first
    tile of a row, and its block index does not move along the row. -/
theorem found_q {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The searched window's staging buffer holds the point's tile (it is fetched at every point). -/
theorem found_s {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-! ## The running minimum, point by point -/

/-- The scratch block after the body at position `n`: at the first tile of a row one step from +inf, otherwise one
    step from what the previous position left. -/
def accAt (c : Dev nD) : (n : ℕ) → n < cfg0.N → Vec F S4x512x1 .f32
  | 0, hn => step (tile V c 0 ⟨0, hn⟩) (tile V c 1 ⟨0, hn⟩) top
  | n + 1, hn => step (tile V c 0 ⟨n + 1, hn⟩) (tile V c 1 ⟨n + 1, hn⟩)
      (if (n + 1) % 16 = 0 then top else accAt c n (Nat.lt_of_succ_lt hn))

theorem accAt_first (c : Dev nD) (t : Fin cfg0.N) (h : t.val % 16 = 0) :
    accAt V c t.val t.isLt = step (tile V c 0 t) (tile V c 1 t) top := by
  obtain ⟨n, hn⟩ := t
  cases n with
  | zero => rfl
  | succ n => show step _ _ (if (n + 1) % 16 = 0 then top else _) = _; rw [if_pos h]

theorem accAt_next (c : Dev nD) (t : Fin cfg0.N) (h : ¬t.val % 16 = 0) :
    accAt V c t.val t.isLt = step (tile V c 0 t) (tile V c 1 t) (accAt V c (t.val - 1) (Nat.lt_of_le_of_lt (Nat.sub_le _ _) t.isLt)) := by
  obtain ⟨n, hn⟩ := t
  cases n with
  | zero => exact absurd (Nat.zero_mod _) h
  | succ n => show step _ _ (if (n + 1) % 16 = 0 then top else _) = _; rw [if_neg h]; rfl

/-! ## The invariant between points -/

/-- The kernel's scratch block, as a memref. -/
abbrev scr : Memref sig .tc .vmem S4x512x1 .f32 := Memref.whole cc0_scratch0
/-- The scoped buffers this kernel never names (the other region's), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- Before the first point nothing is known of the scratch block; after position `n` it holds `accAt … n`. The other
    scoped buffers and the generator register ride along untouched. -/
def inv (c : Dev nD) : (n : ℕ) → n ≤ cfg0.N → sProp 𝕄
  | 0, _ => Pipeline.ΦA spec0 c
  | n + 1, hn => iprop((owns (c : Thread nD τ) scr fullShare (accAt V c n hn) ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop((owns (c : Thread nD τ) scr fullShare (accAt V c n hn) ∗ others c) ∗ (∃ r, prngReg c r)) := rfl
theorem inv_pos (c : Dev nD) (n : ℕ) (h : n ≤ cfg0.N) (hz : n ≠ 0) :
    inv V c n h = iprop((owns (c : Thread nD τ) scr fullShare (accAt V c (n - 1) (by omega)) ∗ others c) ∗ (∃ r, prngReg c r)) := by
  cases n with
  | zero => exact absurd rfl hz
  | succ n => rfl

/-- What the launch hands a region, with this kernel's scratch block singled out. -/
theorem PhiA_eq (c : Dev nD) :
    (Pipeline.ΦA spec0 c : sProp 𝕄) = iprop(((∃ d, owns (c : Thread nD τ) scr fullShare d) ∗ others c) ∗ (∃ r, prngReg c r)) := by
  unfold Pipeline.ΦA others; rw [scopedRest0_eq]; simp only [scr, owns_whole]; try rfl
theorem PhiA_split (c : Dev nD) :
    (Pipeline.ΦA spec0 c : sProp 𝕄) ⊢ iprop(((∃ d, owns (c : Thread nD τ) scr fullShare d) ∗ others c) ∗ (∃ r, prngReg c r)) := by
  rw [PhiA_eq]
theorem PhiA_join (c : Dev nD) :
    iprop(((∃ d, owns (c : Thread nD τ) scr fullShare d) ∗ others c) ∗ (∃ r, prngReg c r)) ⊢ (Pipeline.ΦA spec0 c : sProp 𝕄) := by
  rw [PhiA_eq]

/-! ## The pipeline's proof data -/

/-- The proof data of this pipeline on core `c`: the arrays as the region finds them; after the body each input's
    buffer at its block and the output's at the running minimum (consulted only at the last tile of a row, where the
    body really stores it); the invariant `inv`; nothing owed; full shares. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => accAt V c t.val t.isLt
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = inv V c t.val (Nat.le_of_lt t.isLt) := by
  dsimp only [dat]; simp only [Fin.coe_castSucc]
theorem after_q (c : Dev nD) (t : Fin cfg0.N) : (dat V c).after 0 t = tile V c 0 t := by dsimp only [dat]
theorem after_s (c : Dev nD) (t : Fin cfg0.N) : (dat V c).after 1 t = tile V c 1 t := by dsimp only [dat]
theorem after_o (c : Dev nD) (t : Fin cfg0.N) : (dat V c).after 2 t = accAt V c t.val t.isLt := by dsimp only [dat]
theorem before_q (c : Dev nD) (t : Fin cfg0.N) (d) : (dat V c).before 0 t d = tile V c 0 t :=
  found_q V (dat V c) (A_eq V c 0) (after_q V c) t d
theorem before_s (c : Dev nD) (t : Fin cfg0.N) (d) : (dat V c).before 1 t d = tile V c 1 t :=
  found_s V (dat V c) (A_eq V c 1) (after_s V c) t d

/-! ## Where the output window is idle -/

theorem live_q : ∀ t : Fin cfg0.N, cfg0.idle 0 (grid0.coords t) = false := by decide +kernel
theorem live_s : ∀ t : Fin cfg0.N, cfg0.idle 1 (grid0.coords t) = false := by decide +kernel
theorem idle_o : ∀ t : Fin cfg0.N, ¬isLast (grid0.coords t) → cfg0.idle 2 (grid0.coords t) = true := by decide +kernel
theorem noFlush_o : ∀ t : Fin cfg0.N, ¬isLast (grid0.coords t) → (cfg0.win 2).flush t = false := by decide +kernel
theorem live_o : ∀ t : Fin cfg0.N, isLast (grid0.coords t) → cfg0.idle 2 (grid0.coords t) = false := by decide +kernel

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point. Its position in the row decides the case; the invariant hands it the scratch block at what
    the previous point left (at anything before the first point) and takes it back one step lower. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_q, before_s]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (st0_0 t) fullShare ((dat V c).after 0 t) from by
    unfold Dat.leavesExact; rw [live_q t], after_q]
  rw [show (dat V c).leavesExact 1 t = owns (c : Thread nD τ) (st0_1 t) fullShare ((dat V c).after 1 t) from by
    unfold Dat.leavesExact; rw [live_s t], after_s]
  rw [inv_castSucc V c t]
  have hN : t.val < 256 := lt_of_lt_of_eq t.isLt (show cfg0.N = 256 from N_0)
  by_cases h0 : t.val % 16 = 0
  · have h1 : ¬t.val % 16 = 15 := by omega
    have hl : ¬isLast (grid0.coords t) := fun h => h1 ((isLast_iff t).mp h)
    rw [Dat.leavesExact_idle (dat V c) 2 t (idle_o t hl) (noFlush_o t hl)]
    rw [accAt_first V c t h0]
    by_cases hz : t.val = 0
    · rw [inv_zero V c _ _ hz]
      iintro ⟨HP, Ho, ⟨%d0, H0⟩, ⟨%d1, H1⟩, H2⟩
      have hsp := PhiA_split (F := F) c
      ihave HP' := hsp $$ HP
      icases HP' with ⟨⟨HS, Hoth⟩, Hg⟩
      iapply (run_first c Set.univ (grid0.coords t) _ _ _ _ _ _ _ _ ((isFirst_iff t).mpr h0) hl (tile V c 0 t) (tile V c 1 t) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [inv_pos V c _ _ hz]
      iintro ⟨⟨⟨HS, Hoth⟩, Hg⟩, Ho, ⟨%d0, H0⟩, ⟨%d1, H1⟩, H2⟩
      iapply (run_first c Set.univ (grid0.coords t) _ _ _ _ _ _ _ _ ((isFirst_iff t).mpr h0) hl (tile V c 0 t) (tile V c 1 t) _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hz : t.val ≠ 0 := fun h => h0 (by rw [h])
    have hf : ¬isFirst (grid0.coords t) := fun h => h0 ((isFirst_iff t).mp h)
    rw [inv_pos V c _ _ hz, accAt_next V c t h0]
    by_cases h1 : t.val % 16 = 15
    · have hl : isLast (grid0.coords t) := (isLast_iff t).mpr h1
      rw [show (dat V c).leavesExact 2 t = owns (c : Thread nD τ) (st0_2 t) fullShare ((dat V c).after 2 t) from by
        unfold Dat.leavesExact; rw [live_o t hl], after_o, accAt_next V c t h0]
      iintro ⟨⟨⟨HS, Hoth⟩, Hg⟩, Ho, ⟨%d0, H0⟩, ⟨%d1, H1⟩, ⟨%d2, H2⟩⟩
      iapply (run_last c Set.univ (grid0.coords t) _ _ _ _ _ _ _ _ hf hl (tile V c 0 t) (tile V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hl : ¬isLast (grid0.coords t) := fun h => h1 ((isLast_iff t).mp h)
      rw [Dat.leavesExact_idle (dat V c) 2 t (idle_o t hl) (noFlush_o t hl)]
      iintro ⟨⟨⟨HS, Hoth⟩, Hg⟩, Ho, ⟨%d0, H0⟩, ⟨%d1, H1⟩, H2⟩
      iapply (run_mid c Set.univ (grid0.coords t) _ _ _ _ _ _ _ _ hf hl (tile V c 0 t) (tile V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  rw [show (dat V c).Φ 0 = inv V c 0 (Nat.zero_le _) from rfl, inv_zero V c 0 _ rfl]

/-- After the last point the invariant gives it back, the scratch block's contents forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 256 := N_0; omega)]
  iintro ⟨⟨HS, Hoth⟩, Hg⟩
  iapply (PhiA_join c)
  isplitl [HS Hoth]
  · isplitl [HS]; · iexists _; iexact HS
    iexact Hoth
  iexact Hg

end Cert.KernelIdeal.Tile0

end
-- ==== Proof.Ideal.Body1.lean ====
/-
  The body of tile kernel 1 at one grid point, case by case. The grid is 16 x 16; its second coordinate walks the
  512-wide tiles of the point set that is searched. At the first tile of a row the running minimum (the scratch
  block) is reset to +inf, at every tile it is lowered by the tile's row minima of the squared distances, and at the
  last tile of a row it is copied to the output block.
-/
import proofs.«111591_j44418551775684_1_alg».proof.Proof.Gen.KernelIdeal.Launch
import proofs.«111591_j44418551775684_1_alg».proof.Proof.Gen.KernelIdeal.Skeleton
import proofs.«111591_j44418551775684_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Tile1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offset of every whole-block access of the body. -/
theorem hz3 : (![0, 0, 0] : Fin 3 → Nat) = fun _ => 0 := by funext a; fin_cases a <;> rfl

/-- A rectangle at offset zero of the shape's own extents holds every index. -/
theorem mem_unit_whole {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- "This is the first tile of its row": the scalar chain of the body's first conditional. -/
abbrev isFirst (i : grid1.Coords) : Prop :=
  (Scalar.cmpi .ne (Scalar.extui (Scalar.cmpi .eq (BitVec.ofNat 32 (i 1).val) 0#32)) 0#32) = 1#1
/-- "This is the last tile of its row": the body's second conditional. -/
abbrev isLast (i : grid1.Coords) : Prop := k1_cond2 i = 1#1

theorem isFirst_iff : ∀ t : Fin cfg1.N, isFirst (grid1.coords t) ↔ t.val % 16 = 0 :=
  (by decide +kernel : ∀ t : Fin grid1.N, isFirst (grid1.coords t) ↔ t.val % 16 = 0)
theorem isLast_iff : ∀ t : Fin cfg1.N, isLast (grid1.coords t) ↔ t.val % 16 = 15 :=
  (by decide +kernel : ∀ t : Fin grid1.N, isLast (grid1.coords t) ↔ t.val % 16 = 15)

/-- One step of the running minimum: the previous minima `prev` lowered by the row minima, over the tile `x1`,
    of |a|² + |b|² − 2 a·b for the query rows `x0`. -/
abbrev step (x0 : Vec F S4x512x3 .f32) (x1 : Vec F S4x3x512 .f32) (prev : Vec F S4x512x1 .f32) : Vec F S4x512x1 .f32 :=
  k1_pay2 x0 x1 prev
/-- The reset value: +inf everywhere. -/
abbrev top : Vec F S4x512x1 .f32 := k1_pay1 (F := F)

set_option maxHeartbeats 1000000 in
/-- First tile of a row, not the last: the scratch block, whatever it held, ends at one step from +inf; the inputs
    are only read and the output block is not touched. -/
theorem run_first (c : Dev nD) (E : Set ℕ) (i : grid1.Coords)
    (arg2 : Memref sig .tc .vmem S4x512x3 .f32) (harg2 : arg2.IsWhole) (arg3 : Memref sig .tc .vmem S4x3x512 .f32) (harg3 : arg3.IsWhole)
    (arg4 : Memref sig .tc .vmem S4x512x1 .f32) (harg4 : arg4.IsWhole) (arg5 : Memref sig .tc .vmem S4x512x1 .f32) (harg5 : arg5.IsWhole)
    (hc0 : isFirst i) (hc1 : ¬isLast i) (x0 : Vec F S4x512x3 .f32) (x1 : Vec F S4x3x512 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (step x0 x1 top)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self, mem_unit_whole hz3 Facts₀.inb_S4x512x1_S4x512x1_0_0_0 y⟩), View.canon_cons_unit_zero hz3]
  simp only [View.readAt_eq_ld, harg2.read_unread, harg3.read_unread, View.ld_unit_zero (S := S4x512x3) hz3,
    View.ld_unit_zero (S := S4x3x512) hz3, View.readCov_unit_zero (S := S4x512x1) _ hz3]

set_option maxHeartbeats 1000000 in
/-- A tile in the middle of a row: the scratch block goes from `xs` to one step below it. -/
theorem run_mid (c : Dev nD) (E : Set ℕ) (i : grid1.Coords)
    (arg2 : Memref sig .tc .vmem S4x512x3 .f32) (harg2 : arg2.IsWhole) (arg3 : Memref sig .tc .vmem S4x3x512 .f32) (harg3 : arg3.IsWhole)
    (arg4 : Memref sig .tc .vmem S4x512x1 .f32) (harg4 : arg4.IsWhole) (arg5 : Memref sig .tc .vmem S4x512x1 .f32) (harg5 : arg5.IsWhole)
    (hc0 : ¬isFirst i) (hc1 : ¬isLast i) (x0 : Vec F S4x512x3 .f32) (x1 : Vec F S4x3x512 .f32) (xs : Vec F S4x512x1 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (step x0 x1 xs)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self, mem_unit_whole hz3 Facts₀.inb_S4x512x1_S4x512x1_0_0_0 y⟩), View.canon_cons_unit_zero hz3]
  simp only [View.readAt_eq_ld, harg2.read_unread, harg3.read_unread, harg5.read_unread, View.ld_unit_zero (S := S4x512x3) hz3,
    View.ld_unit_zero (S := S4x3x512) hz3, View.ld_unit_zero (S := S4x512x1) hz3]

set_option maxHeartbeats 1000000 in
/-- The last tile of a row (never the first): the scratch block goes one step below `xs`, and the output block,
    whatever it held, receives the same minima. -/
theorem run_last (c : Dev nD) (E : Set ℕ) (i : grid1.Coords)
    (arg2 : Memref sig .tc .vmem S4x512x3 .f32) (harg2 : arg2.IsWhole) (arg3 : Memref sig .tc .vmem S4x3x512 .f32) (harg3 : arg3.IsWhole)
    (arg4 : Memref sig .tc .vmem S4x512x1 .f32) (harg4 : arg4.IsWhole) (arg5 : Memref sig .tc .vmem S4x512x1 .f32) (harg5 : arg5.IsWhole)
    (hc0 : ¬isFirst i) (hc1 : isLast i) (x0 : Vec F S4x512x3 .f32) (x1 : Vec F S4x3x512 .f32) (xs : Vec F S4x512x1 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (step x0 x1 xs) ∗ owns (c : Thread nD τ) arg5 fullShare (step x0 x1 xs)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.mem_cons_self, mem_unit_whole hz3 Facts₀.inb_S4x512x1_S4x512x1_0_0_0 y⟩), View.canon_cons_unit_zero hz3]
    simp only [View.readAt_eq_ld, harg2.read_unread, harg3.read_unread, harg5.read_unread, View.ld_unit_zero (S := S4x512x3) hz3,
      View.ld_unit_zero (S := S4x3x512) hz3, View.ld_unit_zero (S := S4x512x1) hz3, View.readCov_unit_zero (S := S4x512x1) _ hz3]
  iexists _; isplitr
  swap; · iexact HS
  ipureintro
  sl_unfold_words
  rw [View.read_writes_eq_canon _ _ _ (fun y => ⟨_, List.mem_cons_self, mem_unit_whole hz3 Facts₀.inb_S4x512x1_S4x512x1_0_0_0 y⟩), View.canon_cons_unit_zero hz3]
  simp only [View.readAt_eq_ld, harg2.read_unread, harg3.read_unread, harg5.read_unread, View.ld_unit_zero (S := S4x512x3) hz3,
    View.ld_unit_zero (S := S4x3x512) hz3, View.ld_unit_zero (S := S4x512x1) hz3]

end Cert.KernelIdeal.Tile1

end
-- ==== Proof.Ideal.Row1.lean ====
/-
  Tile kernel 1 along its grid: what the scratch block (the running minimum of a row of queries) holds after every
  point, the invariant that carries it from one point to the next, and the body's obligation to the pipeline at
  every point. Everything is stated at a parameter `V`, the buffers' contents when the region is entered.
-/
import proofs.«111591_j44418551775684_1_alg».proof.Proof.Gen.KernelIdeal.Launch
import proofs.«111591_j44418551775684_1_alg».proof.Proof.Gen.KernelIdeal.Skeleton
import proofs.«111591_j44418551775684_1_alg».proof.Proof.Gen.KernelIdeal.Points
import proofs.«111591_j44418551775684_1_alg».proof.Proof.Ideal.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Tile1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's query block at every point — it is fetched only at the first
    tile of a row, and its block index does not move along the row. -/
theorem found_q {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- The searched window's staging buffer holds the point's tile (it is fetched at every point). -/
theorem found_s {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-! ## The running minimum, point by point -/

/-- The scratch block after the body at position `n`: at the first tile of a row one step from +inf, otherwise one
    step from what the previous position left. -/
def accAt (c : Dev nD) : (n : ℕ) → n < cfg1.N → Vec F S4x512x1 .f32
  | 0, hn => step (tile V c 0 ⟨0, hn⟩) (tile V c 1 ⟨0, hn⟩) top
  | n + 1, hn => step (tile V c 0 ⟨n + 1, hn⟩) (tile V c 1 ⟨n + 1, hn⟩)
      (if (n + 1) % 16 = 0 then top else accAt c n (Nat.lt_of_succ_lt hn))

theorem accAt_first (c : Dev nD) (t : Fin cfg1.N) (h : t.val % 16 = 0) :
    accAt V c t.val t.isLt = step (tile V c 0 t) (tile V c 1 t) top := by
  obtain ⟨n, hn⟩ := t
  cases n with
  | zero => rfl
  | succ n => show step _ _ (if (n + 1) % 16 = 0 then top else _) = _; rw [if_pos h]

theorem accAt_next (c : Dev nD) (t : Fin cfg1.N) (h : ¬t.val % 16 = 0) :
    accAt V c t.val t.isLt = step (tile V c 0 t) (tile V c 1 t) (accAt V c (t.val - 1) (Nat.lt_of_le_of_lt (Nat.sub_le _ _) t.isLt)) := by
  obtain ⟨n, hn⟩ := t
  cases n with
  | zero => exact absurd (Nat.zero_mod _) h
  | succ n => show step _ _ (if (n + 1) % 16 = 0 then top else _) = _; rw [if_neg h]; rfl

/-! ## The invariant between points -/

/-- The kernel's scratch block, as a memref. -/
abbrev scr : Memref sig .tc .vmem S4x512x1 .f32 := Memref.whole cc1_scratch0
/-- The scoped buffers this kernel never names (the other region's), each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- Before the first point nothing is known of the scratch block; after position `n` it holds `accAt … n`. The other
    scoped buffers and the generator register ride along untouched. -/
def inv (c : Dev nD) : (n : ℕ) → n ≤ cfg1.N → sProp 𝕄
  | 0, _ => Pipeline.ΦA spec1 c
  | n + 1, hn => iprop((owns (c : Thread nD τ) scr fullShare (accAt V c n hn) ∗ others c) ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop((owns (c : Thread nD τ) scr fullShare (accAt V c n hn) ∗ others c) ∗ (∃ r, prngReg c r)) := rfl
theorem inv_pos (c : Dev nD) (n : ℕ) (h : n ≤ cfg1.N) (hz : n ≠ 0) :
    inv V c n h = iprop((owns (c : Thread nD τ) scr fullShare (accAt V c (n - 1) (by omega)) ∗ others c) ∗ (∃ r, prngReg c r)) := by
  cases n with
  | zero => exact absurd rfl hz
  | succ n => rfl

/-- What the launch hands a region: the scoped buffers no window of this kernel stages (this kernel's scratch block
    is listed last among them) and the generator register. -/
theorem PhiA_eq (c : Dev nD) :
    (Pipeline.ΦA spec1 c : sProp 𝕄) = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scr fullShare d)) ∗ (∃ r, prngReg c r)) := by
  unfold Pipeline.ΦA; rw [scopedRest1_eq]; simp only [scr, owns_whole]; try rfl
theorem PhiA_split (c : Dev nD) :
    (Pipeline.ΦA spec1 c : sProp 𝕄) ⊢ iprop(((∃ d, owns (c : Thread nD τ) scr fullShare d) ∗ others c) ∗ (∃ r, prngReg c r)) := by
  rw [PhiA_eq]; unfold others
  iintro ⟨⟨H1, H2, H3, H4, H5, H6, H7, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg
theorem PhiA_join (c : Dev nD) :
    iprop(((∃ d, owns (c : Thread nD τ) scr fullShare d) ∗ others c) ∗ (∃ r, prngReg c r)) ⊢ (Pipeline.ΦA spec1 c : sProp 𝕄) := by
  rw [PhiA_eq]; unfold others
  iintro ⟨⟨HS, H1, H2, H3, H4, H5, H6, H7⟩, Hg⟩
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## The pipeline's proof data -/

/-- The proof data of this pipeline on core `c`: the arrays as the region finds them; after the body each input's
    buffer at its block and the output's at the running minimum (consulted only at the last tile of a row, where the
    body really stores it); the invariant `inv`; nothing owed; full shares. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => accAt V c t.val t.isLt
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) :
    (dat V c).Φ t.castSucc = inv V c t.val (Nat.le_of_lt t.isLt) := by
  dsimp only [dat]; simp only [Fin.coe_castSucc]
theorem after_q (c : Dev nD) (t : Fin cfg1.N) : (dat V c).after 0 t = tile V c 0 t := by dsimp only [dat]
theorem after_s (c : Dev nD) (t : Fin cfg1.N) : (dat V c).after 1 t = tile V c 1 t := by dsimp only [dat]
theorem after_o (c : Dev nD) (t : Fin cfg1.N) : (dat V c).after 2 t = accAt V c t.val t.isLt := by dsimp only [dat]
theorem before_q (c : Dev nD) (t : Fin cfg1.N) (d) : (dat V c).before 0 t d = tile V c 0 t :=
  found_q V (dat V c) (A_eq V c 0) (after_q V c) t d
theorem before_s (c : Dev nD) (t : Fin cfg1.N) (d) : (dat V c).before 1 t d = tile V c 1 t :=
  found_s V (dat V c) (A_eq V c 1) (after_s V c) t d

/-! ## Where the output window is idle -/

theorem live_q : ∀ t : Fin cfg1.N, cfg1.idle 0 (grid1.coords t) = false := by decide +kernel
theorem live_s : ∀ t : Fin cfg1.N, cfg1.idle 1 (grid1.coords t) = false := by decide +kernel
theorem idle_o : ∀ t : Fin cfg1.N, ¬isLast (grid1.coords t) → cfg1.idle 2 (grid1.coords t) = true := by decide +kernel
theorem noFlush_o : ∀ t : Fin cfg1.N, ¬isLast (grid1.coords t) → (cfg1.win 2).flush t = false := by decide +kernel
theorem live_o : ∀ t : Fin cfg1.N, isLast (grid1.coords t) → cfg1.idle 2 (grid1.coords t) = false := by decide +kernel

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point. Its position in the row decides the case; the invariant hands it the scratch block at what
    the previous point left (at anything before the first point) and takes it back one step lower. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_s]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (st1_0 t) fullShare ((dat V c).after 0 t) from by
    unfold Dat.leavesExact; rw [live_q t], after_q]
  rw [show (dat V c).leavesExact 1 t = owns (c : Thread nD τ) (st1_1 t) fullShare ((dat V c).after 1 t) from by
    unfold Dat.leavesExact; rw [live_s t], after_s]
  rw [inv_castSucc V c t]
  have hN : t.val < 256 := lt_of_lt_of_eq t.isLt (show cfg1.N = 256 from N_1)
  by_cases h0 : t.val % 16 = 0
  · have h1 : ¬t.val % 16 = 15 := by omega
    have hl : ¬isLast (grid1.coords t) := fun h => h1 ((isLast_iff t).mp h)
    rw [Dat.leavesExact_idle (dat V c) 2 t (idle_o t hl) (noFlush_o t hl)]
    rw [accAt_first V c t h0]
    by_cases hz : t.val = 0
    · rw [inv_zero V c _ _ hz]
      iintro ⟨HP, Ho, ⟨%d0, H0⟩, ⟨%d1, H1⟩, H2⟩
      have hsp := PhiA_split (F := F) c
      ihave HP' := hsp $$ HP
      icases HP' with ⟨⟨HS, Hoth⟩, Hg⟩
      iapply (run_first c Set.univ (grid1.coords t) _ _ _ _ _ _ _ _ ((isFirst_iff t).mpr h0) hl (tile V c 0 t) (tile V c 1 t) _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [inv_pos V c _ _ hz]
      iintro ⟨⟨⟨HS, Hoth⟩, Hg⟩, Ho, ⟨%d0, H0⟩, ⟨%d1, H1⟩, H2⟩
      iapply (run_first c Set.univ (grid1.coords t) _ _ _ _ _ _ _ _ ((isFirst_iff t).mpr h0) hl (tile V c 0 t) (tile V c 1 t) _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
  · have hz : t.val ≠ 0 := fun h => h0 (by rw [h])
    have hf : ¬isFirst (grid1.coords t) := fun h => h0 ((isFirst_iff t).mp h)
    rw [inv_pos V c _ _ hz, accAt_next V c t h0]
    by_cases h1 : t.val % 16 = 15
    · have hl : isLast (grid1.coords t) := (isLast_iff t).mpr h1
      rw [show (dat V c).leavesExact 2 t = owns (c : Thread nD τ) (st1_2 t) fullShare ((dat V c).after 2 t) from by
        unfold Dat.leavesExact; rw [live_o t hl], after_o, accAt_next V c t h0]
      iintro ⟨⟨⟨HS, Hoth⟩, Hg⟩, Ho, ⟨%d0, H0⟩, ⟨%d1, H1⟩, ⟨%d2, H2⟩⟩
      iapply (run_last c Set.univ (grid1.coords t) _ _ _ _ _ _ _ _ hf hl (tile V c 0 t) (tile V c 1 t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hl : ¬isLast (grid1.coords t) := fun h => h1 ((isLast_iff t).mp h)
      rw [Dat.leavesExact_idle (dat V c) 2 t (idle_o t hl) (noFlush_o t hl)]
      iintro ⟨⟨⟨HS, Hoth⟩, Hg⟩, Ho, ⟨%d0, H0⟩, ⟨%d1, H1⟩, H2⟩
      iapply (run_mid c Set.univ (grid1.coords t) _ _ _ _ _ _ _ _ hf hl (tile V c 0 t) (tile V c 1 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]

/-- After the last point the invariant gives it back, the scratch block's contents forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 256 := N_1; omega)]
  iintro ⟨⟨HS, Hoth⟩, Hg⟩
  iapply (PhiA_join c)
  isplitl [HS Hoth]
  · isplitl [HS]; · iexists _; iexact HS
    iexact Hoth
  iexact Hg

end Cert.KernelIdeal.Tile1

end
-- ==== Proof.Ideal.Run.lean ====
/-
  The whole program: two transposes, tile kernel 0, a reshape, tile kernel 1, and the host tail that averages the two
  vectors of minima and adds the averages. The buffers' contents at every boundary between these five stretches are
  a fold from the launch memory; each kernel region hands its arrays to its pipeline and takes them back at what the
  write-backs leave; every weakly fair execution ends with every unscoped buffer at the last boundary's contents.
-/
import proofs.«111591_j44418551775684_1_alg».proof.Proof.Gen.KernelIdeal.Launch
import proofs.«111591_j44418551775684_1_alg».proof.Proof.Gen.KernelIdeal.Skeleton
import proofs.«111591_j44418551775684_1_alg».proof.Proof.Gen.KernelIdeal.Points
import proofs.«111591_j44418551775684_1_alg».proof.Proof.Ideal.Row0
import proofs.«111591_j44418551775684_1_alg».proof.Proof.Ideal.Row1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the two transposes (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (Tile0.dat (V1 m ρ) c).arrAt w cfg0.N
theorem W2_arr (c : Dev nD) (w : Fin cfg0.W) :
    W2 m ρ c (Proc.devRef .tc (Pipeline.arrRef spec0 w)) = (Tile0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Tile0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the first minima (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (Tile1.dat (V3 m ρ) c).arrAt w cfg1.N
theorem W4_arr (c : Dev nD) (w : Fin cfg1.W) :
    W4 m ρ c (Proc.devRef .tc (Pipeline.arrRef spec1 w)) = (Tile1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Tile1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host tail: the end. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Tile0.dat (V1 m ρ) c
  | ⟨1, _⟩ => fun c => Tile1.dat (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

/-- What region 0's launch hands over makes the invariant before the first point, -/
theorem enter0 (V : (c : Dev nD) → (b : Ref sig .tc) → Buf (Elt F) ((c : Thread nD τ).loc b)) (c : Dev nD) (P : sProp 𝕄) :
    (iprop((∃ r, prngReg c r) ∗ P ∗ Pipeline.scopedRest spec0 c) : sProp 𝕄) ⊢ (Tile0.dat V c).Φ 0 := by
  have h := Tile0.inv_in V c
  unfold Pipeline.ΦA at h
  iintro ⟨Hp, -, Hr⟩
  iapply h
  isplitl [Hr]; · iexact Hr
  iexact Hp
/-- and the invariant after the last point gives it back. -/
theorem leave0 (V : (c : Dev nD) → (b : Ref sig .tc) → Buf (Elt F) ((c : Thread nD τ).loc b)) (c : Dev nD) :
    (Tile0.dat V c).Φ (Fin.last cfg0.N) ⊢ (iprop((∃ r, prngReg c r) ∗ BI.emp ∗ Pipeline.scopedRest spec0 c) : sProp 𝕄) := by
  have h := Tile0.inv_out V c
  unfold Pipeline.ΦA at h
  iintro H
  ihave H' := h $$ H
  icases H' with ⟨Hr, Hp⟩
  isplitl [Hp]; · iexact Hp
  isplitr; · iempintro
  iexact Hr

/-- What region 1's launch hands over makes the invariant before the first point, -/
theorem enter1 (V : (c : Dev nD) → (b : Ref sig .tc) → Buf (Elt F) ((c : Thread nD τ).loc b)) (c : Dev nD) (P : sProp 𝕄) :
    (iprop((∃ r, prngReg c r) ∗ P ∗ Pipeline.scopedRest spec1 c) : sProp 𝕄) ⊢ (Tile1.dat V c).Φ 0 := by
  have h := Tile1.inv_in V c
  unfold Pipeline.ΦA at h
  iintro ⟨Hp, -, Hr⟩
  iapply h
  isplitl [Hr]; · iexact Hr
  iexact Hp
/-- and the invariant after the last point gives it back. -/
theorem leave1 (V : (c : Dev nD) → (b : Ref sig .tc) → Buf (Elt F) ((c : Thread nD τ).loc b)) (c : Dev nD) :
    (Tile1.dat V c).Φ (Fin.last cfg1.N) ⊢ (iprop((∃ r, prngReg c r) ∗ BI.emp ∗ Pipeline.scopedRest spec1 c) : sProp 𝕄) := by
  have h := Tile1.inv_out V c
  unfold Pipeline.ΦA at h
  iintro H
  ihave H' := h $$ H
  icases H' with ⟨Hr, Hp⟩
  isplitl [Hp]; · iexact Hp
  isplitr; · iempintro
  iexact Hr

set_option backward.isDefEq.respectTransparency.types false in
/-- Region 0 over the thread state: entered with every unscoped buffer at `W1`, left with them at `W2`.
    Its arrays are split out of the unscoped buffers and put back at what the write-backs leave; the generator
    register goes into the invariant and comes back; the core owes nothing; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Tile0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := enter0 (V1 m ρ) c _
  hout c := by
    rw [Pipeline.ownSems0_none]
    exact leave0 (V1 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`.
    Its arrays are split out of the unscoped buffers and put back at what the write-backs leave; the generator
    register goes into the invariant and comes back; the core owes nothing; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Tile1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := enter1 (V3 m ρ) c _
  hout c := by
    rw [Pipeline.ownSems0_none]
    exact leave1 (V3 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final memory holds every unscoped buffer at the last boundary's contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => (show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W) from by
      iintro ⟨Hh, Hp, Ho⟩
      isplitl [Hh Hp]
      · isplitl [Hh]; · iexact Hh
        iexact Hp
      iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Whole

end
-- ==== Proof.Ideal.Ends.lean ====
/-
  What the whole run leaves in the argument arrays: no host operation writes an argument, and a kernel region
  either reads it through an input window or bypasses it, so the fold of the buffers' contents walks each
  argument back to the launch memory. Hence the frame: every execution terminates with the arguments as launched.
-/
import proofs.«111591_j44418551775684_1_alg».proof.Proof.Gen.KernelIdeal.Launch
import proofs.«111591_j44418551775684_1_alg».proof.Proof.Gen.KernelIdeal.Skeleton
import proofs.«111591_j44418551775684_1_alg».proof.Proof.Gen.KernelIdeal.Points
import proofs.«111591_j44418551775684_1_alg».proof.Proof.Gen.KernelIdeal.Regions
import proofs.«111591_j44418551775684_1_alg».proof.Proof.Ideal.Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((Tile0.dat (V1 m ρ) c).arrAt_in 0 rfl _).trans (Tile0.A_eq (V1 m ρ) c 0))
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := (W4_arr m ρ c 0).trans (((Tile1.dat (V3 m ρ) c).arrAt_in 0 rfl _).trans (Tile1.A_eq (V3 m ρ) c 0))
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run m ρ)

end Cert.KernelIdeal.Whole

end
-- ==== Proof.LibMinBounds.lean ====
/-
  Lower bounds of minima over the extended reals. A minimum taken by a fold — the host's one-operand
  reduce with a minimum body, a vector multi-reduction of kind minimum — is characterised by its lower
  bounds: a number lies below the result exactly when it lies below the starting value and below every
  entry that reduces to the index. Two results with the same lower bounds are equal, so two programs
  that take the same minimum in different orders, groupings or tilings agree without any unfolding of
  the folds themselves. No finiteness is needed: the extended reals are a linear order.
-/
import Idealize.ShloMosaic.PureOps.Ideal
import Idealize.ShloMosaic.PureOps.Ideal.Laws
import Idealize.ShloMosaic.PureOps.Reduce

noncomputable section

namespace Cert.LibMinBounds

open Idealize.ShloMosaic

/-- A fold of the ideal minimum over a finite set lies above `z` exactly when its start and every term do. -/
theorem le_fold_minimumf {ι : Type} {φ : FTy} (S : Finset ι) (b : Ideal φ) (f : ι → Ideal φ) (z : EReal) :
    z ≤ S.fold (FloatOps.minimumf (F := Ideal) (φ := φ)) b f ↔ z ≤ b ∧ ∀ i ∈ S, z ≤ f i :=
  Finset.le_fold_min (s := S) (b := b) (f := f) (c := z)

/-- The host's reduce with a minimum body, at an index: its lower bounds are those of the initial value
    and of every operand entry that drops to the index. -/
theorem le_hostReduce_min {s t u : Shape} {axes : List (Fin s.rank)} {φ : FTy} (x : s.Idx → Ideal φ)
    (init : u.Idx → Ideal φ) (h : s.ReducesTo axes t) (hu : 0 < u.numel) (j : t.Idx) (z : EReal) :
    z ≤ Host.reduce (FloatOps.minimumf (F := Ideal) (φ := φ)) x init h hu j
      ↔ z ≤ init (Shape.Idx.first hu) ∧ ∀ i : s.Idx, h.drop i = j → z ≤ x i := by
  rw [Host.reduce_eq_fold, le_fold_minimumf]
  simp only [Finset.mem_filter, Finset.mem_univ, true_and]

/-- A vector multi-reduction of kind minimum, at an index: its lower bounds are those of the accumulator's
    value and of every source entry that drops to the index. -/
theorem le_multiReduction_min {s t : Shape} {axes : List (Fin s.rank)} {φ : FTy} (src : FVec Ideal s φ)
    (acc : BitVec φ.bits) (h : s.Reduces axes t) (hφ : FKind.Formats φ) (hacc : acc = FKind.minimumf.neutral φ hφ)
    (j : t.Idx) (z : EReal) :
    z ≤ multiReduction .minimumf axes t src acc h hφ hacc j
      ↔ z ≤ Ideal.ofBits φ acc ∧ ∀ i : s.Idx, h.drop i = j → z ≤ src i := by
  rw [multiReduction_minimumf_eq_fold, le_fold_minimumf]
  simp only [Finset.mem_filter, Finset.mem_univ, true_and, Ideal.ofBits_def]

/-- Two extended reals with the same lower bounds are equal. -/
theorem eq_of_forall_le_iff {a b : EReal} (h : ∀ z : EReal, z ≤ a ↔ z ≤ b) : a = b :=
  le_antisymm ((h a).mp le_rfl) ((h b).mpr le_rfl)

end Cert.LibMinBounds

end
-- ==== Proof.LibMinAxis.lean ====
/-
  Minima along ONE axis, by lower bounds. When a reduction drops a single axis, the entries that reduce to an
  index `j` are `j` with each coordinate `k` of the dropped axis put back; so a number lies below a minimum
  along that axis exactly when it lies below the starting value and below the entry at every `k`. Stated for a
  vector multi-reduction of kind minimum and for the host's reduce with a minimum body, over the extended
  reals; and the two index facts used with them: the middle axis of a three-axis stack put back, and a
  four-axis slab with a unit second axis cast to three axes.
-/
import Idealize.ShloMosaic.Lib.Pipeline.Value
import Idealize.ShloMosaic.Lib.ValueIdx
import Idealize.ShloMosaic.PureOps.Ideal.Laws
import proofs.«111591_j44418551775684_1_alg».proof.Proof.LibMinBounds

noncomputable section

namespace Cert.LibMinAxis

open Idealize.ShloMosaic Idealize.ShloMosaic.ValueIdx

/-- The indices that drop to `j` along one axis are `j` with a coordinate of that axis inserted. -/
theorem forall_drop_iff {s t : Shape} {a : Fin s.rank} (h : s.Reduces [a] t) (j : t.Idx) (P : s.Idx → Prop) :
    (∀ i : s.Idx, h.drop i = j → P i) ↔ ∀ k : Fin (s.size a), P (h.lift j k) :=
  ⟨fun H k => H _ (h.drop_lift j k), fun H i hi => by
    have e := H (i a)
    rw [← hi, h.lift_drop] at e
    exact e⟩

/-- A multi-reduction of kind minimum along one axis: its lower bounds are those of the accumulator's value
    and of the source at every coordinate of the dropped axis. -/
theorem le_multiReduction_min_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) (z : EReal) :
    z ≤ multiReduction .minimumf [a] t src acc h hφ hacc j
      ↔ z ≤ Ideal.ofBits φ acc ∧ ∀ k : Fin (s.size a), z ≤ src (h.lift j k) :=
  (Cert.LibMinBounds.le_multiReduction_min src acc h hφ hacc j z).trans
    (and_congr Iff.rfl (forall_drop_iff h j fun i => z ≤ src i))

/-- The host's reduce with a minimum body along one axis, likewise. -/
theorem le_hostReduce_min_single {s t u : Shape} {a : Fin s.rank} {φ : FTy} (x : s.Idx → Ideal φ)
    (init : u.Idx → Ideal φ) (h' : s.ReducesTo [a] t) (h : s.Reduces [a] t) (hu : 0 < u.numel) (j : t.Idx) (z : EReal) :
    z ≤ Host.reduce (FloatOps.minimumf (F := Ideal) (φ := φ)) x init h' hu j
      ↔ z ≤ init (Shape.Idx.first hu) ∧ ∀ k : Fin (s.size a), z ≤ x (h.lift j k) := by
  refine (Cert.LibMinBounds.le_hostReduce_min x init h' hu j z).trans (and_congr Iff.rfl ?_)
  rw [Shape.ReducesTo.drop_eq_drop h' h]
  exact forall_drop_iff h j fun i => z ≤ x i

/-- Entry `(p, q)` of a `[a, c]` matrix with coordinate `k` of the dropped middle axis put back is `(p, k, q)`. -/
theorem lift_mid {a b c : ℕ} (h : (⟨3, ![a, b, c]⟩ : Shape).Reduces [1] (⟨2, ![a, c]⟩ : Shape)) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

/-- A slab `[a, 1, b, c]` cast to `[a, b, c]` reads, at `(p, r, q)`, the slab at `(p, 0, r, q)`. -/
theorem shapeCast_a1bc_abc_apply {α : Type} {a b c : ℕ} (x : (⟨4, ![a, 1, b, c]⟩ : Shape).Idx → α)
    (h : (⟨4, ![a, 1, b, c]⟩ : Shape).ShapeCasts ⟨3, ![a, b, c]⟩) (p : Fin a) (r : Fin b) (q : Fin c) :
    shapeCast ⟨3, ![a, b, c]⟩ x h (ix3 p r q) = x (ix4 p (0 : Fin 1) r q) :=
  shapeCast_apply x h _ _ (by
    rw [Shape.rowMajor_val_four, Shape.rowMajor_val_three]
    show ((p.val * 1 + 0) * b + r.val) * c + q.val = (p.val * b + r.val) * c + q.val
    rw [Nat.mul_one, Nat.add_zero])

end Cert.LibMinAxis

end
-- ==== Proof.SqDist.lean ====
/-
  The squared distance of two points of three coordinates, in the expanded spelling both programs compute:
  |u|² + |v|² − 2 u·v, each of the three sums over the coordinates, the factor two the float literal.
  Over the extended reals addition and multiplication are commutative, so the spelling is symmetric in the two points.
-/
import Idealize.ShloMosaic.PureOps.Ideal
import Idealize.ShloMosaic.PureOps.Ideal.Laws

noncomputable section

namespace Cert.SqDist

open Idealize.ShloMosaic

/-- |u|² + |v|² − 2 u·v. -/
def sqd (u v : Fin 3 → EReal) : EReal :=
  ((∑ k : Fin 3, u k * u k) + (∑ k : Fin 3, v k * v k)) - Ideal.ofBits .f32 0x40000000#32 * (∑ k : Fin 3, u k * v k)

/-- The spelling does not care which point is named first. -/
theorem sqd_comm (u v : Fin 3 → EReal) : sqd u v = sqd v u := by
  unfold sqd
  rw [add_comm (∑ k : Fin 3, u k * u k)]
  congr 2
  exact Finset.sum_congr rfl fun k _ => mul_comm _ _

end Cert.SqDist

end
-- ==== Proof.Ideal.Step0.lean ====
/-
  One step of tile kernel 0's running minimum, read at an entry by its lower bounds: a number lies below the
  stepped minimum at query row (b, r) exactly when it lies below the previous minimum there and below the squared
  distance from that query row to every one of the tile's 512 points.
-/
import proofs.«111591_j44418551775684_1_alg».proof.Proof.Gen.KernelIdeal.Skeleton
import proofs.«111591_j44418551775684_1_alg».proof.Proof.LibMinAxis
import proofs.«111591_j44418551775684_1_alg».proof.Proof.SqDist
import Idealize.ShloMosaic.Lib.ValueIdx
import Idealize.ShloMosaic.Lib.Pipeline.Value
import Idealize.ShloMosaic.PureOps.Ideal.Laws

set_option maxRecDepth 16384

noncomputable section

namespace Cert.KernelIdeal.Step0

open Idealize.ShloMosaic Idealize.ShloMosaic.ValueIdx Cert.KernelIdeal Cert.KernelIdeal.Gen Cert.SqDist

/-- Entry `(p, q)` of an `[a, b]` matrix with coordinate `k` of the dropped last axis put back is `(p, q, k)`. -/
theorem lift_last {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The +inf word is the top of the extended reals. -/
theorem inf_top : Ideal.ofBits .f32 0x7F800000#32 = (⊤ : EReal) := by simp [Ideal.ofBits, Ideal.ieee]

/-! ## The layout steps of the body, each read at an index -/

/-- A `[4, 512]` matrix written as a column stack `[4, 512, 1]`. -/
theorem col_apply {α : Type} (v : S4x512.Idx → α) (h : S4x512.ShapeCasts S4x512x1) (b : Fin 4) (r : Fin 512) :
    shapeCast S4x512x1 v h (ix3 b r 0) = v (ix2 b r) :=
  shapeCast_apply v h _ _ (by
    rw [Shape.rowMajor_val_two, Shape.rowMajor_val_three]
    show b.val * 512 + r.val = (b.val * 512 + r.val) * 1 + 0
    omega)

/-- A `[4, 512]` matrix written as a row stack `[4, 1, 512]`. -/
theorem row_apply {α : Type} (v : S4x512.Idx → α) (h : S4x512.ShapeCasts S4x1x512) (b : Fin 4) (q : Fin 512) :
    shapeCast S4x1x512 v h (ix3 b 0 q) = v (ix2 b q) :=
  shapeCast_apply v h _ _ (by
    rw [Shape.rowMajor_val_two, Shape.rowMajor_val_three]
    show b.val * 512 + q.val = (b.val * 1 + 0) * 512 + q.val
    omega)

/-- The column stack stretched along the last axis. -/
theorem stretch_col {α : Type} (v : S4x512x1.Idx → α) (h : S4x512x1.Broadcasts S4x512x512) (b : Fin 4) (r q : Fin 512) :
    broadcastTo S4x512x512 v h (ix3 b r q) = v (ix3 b r 0) :=
  broadcastTo_apply v h _ _ fun a => by fin_cases a <;> rfl

/-- The row stack stretched along the middle axis. -/
theorem stretch_row {α : Type} (v : S4x1x512.Idx → α) (h : S4x1x512.Broadcasts S4x512x512) (b : Fin 4) (r q : Fin 512) :
    broadcastTo S4x512x512 v h (ix3 b r q) = v (ix3 b 0 q) :=
  broadcastTo_apply v h _ _ fun a => by fin_cases a <;> rfl

/-! ## The three sums over the coordinates -/

/-- |a|² of query row (b, r): the lane sum of the squares. -/
theorem sq_query (x : FVec Ideal S4x512x3 .f32) (hφ : FKind.Formats .f32) (hacc : (0x00000000#32 : BitVec 32) = 0x00000000#32)
    (b : Fin 4) (r : Fin 512) :
    multiReduction .add [2] S4x512 (mulf x x) 0x00000000#32 Facts₀.reduces_S4x512x3_S4x512 hφ hacc (ix2 b r)
      = ∑ k : Fin 3, x (ix3 b r k) * x (ix3 b r k) := by
  refine (Ideal.multiReduction_add_single (mulf x x) _ Facts₀.reduces_S4x512x3_S4x512 hφ hacc (ix2 b r)).trans ?_
  show (∑ k : Fin 3, _) = _
  exact Finset.sum_congr rfl fun k _ => congrArg (mulf x x) (lift_last Facts₀.reduces_S4x512x3_S4x512 b r k)

/-- |b|² of the tile's point (b, q): the sum of the squares down the coordinate axis. -/
theorem sq_point (x : FVec Ideal S4x3x512 .f32) (hφ : FKind.Formats .f32) (hacc : (0x00000000#32 : BitVec 32) = 0x00000000#32)
    (b : Fin 4) (q : Fin 512) :
    multiReduction .add [1] S4x512 (mulf x x) 0x00000000#32 Facts₀.reduces_S4x3x512_S4x512 hφ hacc (ix2 b q)
      = ∑ k : Fin 3, x (ix3 b k q) * x (ix3 b k q) := by
  refine (Ideal.multiReduction_add_single (mulf x x) _ Facts₀.reduces_S4x3x512_S4x512 hφ hacc (ix2 b q)).trans ?_
  show (∑ k : Fin 3, _) = _
  exact Finset.sum_congr rfl fun k _ => congrArg (mulf x x) (Cert.LibMinAxis.lift_mid Facts₀.reduces_S4x3x512_S4x512 b q k)

abbrev DD := dot_S4x512x3_S4x3x512_S4x512x512_2_1_1_2_0_0

theorem lhs_0 (i : S4x512x512.Idx) (q : DD.contr.Idx) : (DD.lhsIdx i q 0).val = (i 0).val := by
  unfold DotDims.lhsIdx
  rw [dif_pos (show (0 : Fin S4x512x3.rank) ∈ DD.lhsBatch by decide)]
  rfl
theorem lhs_1 (i : S4x512x512.Idx) (q : DD.contr.Idx) : (DD.lhsIdx i q 1).val = (i 1).val := by
  unfold DotDims.lhsIdx
  rw [dif_neg (show ¬(1 : Fin S4x512x3.rank) ∈ DD.lhsBatch by decide), dif_pos (show (1 : Fin S4x512x3.rank) ∈ DD.lhsNonContracting by decide)]
  rfl
theorem lhs_2 (i : S4x512x512.Idx) (q : DD.contr.Idx) : (DD.lhsIdx i q 2).val = (q ⟨0, by decide⟩).val :=
  DD.lhsIdx_val_of_single rfl i q
theorem rhs_0 (i : S4x512x512.Idx) (q : DD.contr.Idx) : (DD.rhsIdx i q 0).val = (i 0).val := by
  unfold DotDims.rhsIdx
  rw [dif_pos (show (0 : Fin S4x3x512.rank) ∈ DD.rhsBatch by decide)]
  rfl
theorem rhs_1 (i : S4x512x512.Idx) (q : DD.contr.Idx) : (DD.rhsIdx i q 1).val = (q ⟨0, by decide⟩).val :=
  DD.rhsIdx_val_of_single rfl i q
theorem rhs_2 (i : S4x512x512.Idx) (q : DD.contr.Idx) : (DD.rhsIdx i q 2).val = (i 2).val := by
  unfold DotDims.rhsIdx
  rw [dif_neg (show ¬(2 : Fin S4x3x512.rank) ∈ DD.rhsBatch by decide), dif_pos (show (2 : Fin S4x3x512.rank) ∈ DD.rhsNonContracting by decide)]
  rfl

/-- a·b for query row (b, r) and the tile's point (b, q): the batched product into the zero accumulator. -/
theorem inner_apply (l : FVec Ideal S4x512x3 .bf16) (rr : FVec Ideal S4x3x512 .bf16) (b : Fin 4) (r q : Fin 512) :
    matmul DD none l rr (constant S4x512x512 .f32 0x00000000#32) (ix3 b r q) = ∑ k : Fin 3, l (ix3 b r k) * rr (ix3 b k q) := by
  show FloatOps.matmul DD none l rr (constant S4x512x512 .f32 0x00000000#32) (ix3 b r q) = _
  rw [Ideal.matmul_constant_zero_apply, ← Equiv.sum_comp (contrEquiv1 DD 3 rfl rfl).symm]
  refine Finset.sum_congr rfl fun k _ => ?_
  have hk := contrEquiv1_symm_val DD 3 rfl rfl k
  have el : DD.lhsIdx (ix3 b r q) ((contrEquiv1 DD 3 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : DD.rhsIdx (ix3 b r q) ((contrEquiv1 DD 3 rfl rfl).symm k) = ix3 b k q := funext fun a => Fin.ext (by
    match a with
    | ⟨0, _⟩ => exact rhs_0 _ _
    | ⟨1, _⟩ => exact (rhs_1 _ _).trans hk
    | ⟨2, _⟩ => exact rhs_2 _ _)
  rw [el, er]

/-- The row minimum of a `[4, 512, 512]` stack along its last axis, from +inf, by its lower bounds. -/
theorem le_rowmin (v : FVec Ideal S4x512x512 .f32) (hφ : FKind.Formats .f32)
    (hacc : (0x7F800000#32 : BitVec 32) = FKind.minimumf.neutral .f32 hφ) (b : Fin 4) (r : Fin 512) (z : EReal) :
    z ≤ multiReduction .minimumf [2] S4x512 v 0x7F800000#32 Facts₀.reduces_S4x512x512_S4x512 hφ hacc (ix2 b r)
      ↔ ∀ q : Fin 512, z ≤ v (ix3 b r q) := by
  refine (Cert.LibMinAxis.le_multiReduction_min_single v _ Facts₀.reduces_S4x512x512_S4x512 hφ hacc (ix2 b r) z).trans ?_
  rw [inf_top]
  refine ⟨fun H q => ?_, fun H => ⟨le_top, fun k => ?_⟩⟩
  · exact (congrArg (fun i => z ≤ v i) (lift_last Facts₀.reduces_S4x512x512_S4x512 b r q)).mp (H.2 q)
  · exact (congrArg (fun i => z ≤ v i) (lift_last Facts₀.reduces_S4x512x512_S4x512 b r k)).mpr (H ⟨k.val, k.isLt⟩)

/-! ## The step -/

theorem le_step (x0 : Vec Ideal S4x512x3 .f32) (x1 : Vec Ideal S4x3x512 .f32) (prev : Vec Ideal S4x512x1 .f32)
    (b : Fin 4) (r : Fin 512) (z : EReal) :
    z ≤ k0_pay2 (F := Ideal) x0 x1 prev (ix3 b r 0)
      ↔ z ≤ prev (ix3 b r 0) ∧ ∀ q : Fin 512, z ≤ sqd (fun k => x0 (ix3 b r k)) (fun k => x1 (ix3 b k q)) := by
  unfold k0_pay2
  dsimp only
  rw [shapeCast_self, minimumf_apply, le_min_iff]
  refine and_congr Iff.rfl ?_
  rw [col_apply]
  refine (le_rowmin _ _ _ b r z).trans (forall_congr' fun q => ?_)
  rw [subf_apply, addf_apply, mulf_apply, broadcast_apply, stretch_col, stretch_row, col_apply, row_apply,
    sq_query, sq_point, inner_apply, shapeCast_self]
  unfold sqd
  exact Iff.rfl

end Cert.KernelIdeal.Step0

end
-- ==== Proof.Ideal.RowMin0.lean ====
/-
  Tile kernel 0's result array, entry by entry. Along a row of the grid the scratch block after tile number j holds,
  at query row (b, r), a number whose lower bounds are those of the squared distances from that query to the first
  512·(j+1) points of the searched set; after the last tile, to all 8192 of them. That block is what the last tile of the
  row writes back, and the written blocks tile the result array.
-/
import proofs.«111591_j44418551775684_1_alg».proof.Proof.Gen.KernelIdeal.Launch
import proofs.«111591_j44418551775684_1_alg».proof.Proof.Gen.KernelIdeal.Skeleton
import proofs.«111591_j44418551775684_1_alg».proof.Proof.Gen.KernelIdeal.Points
import proofs.«111591_j44418551775684_1_alg».proof.Proof.Ideal.Row0
import proofs.«111591_j44418551775684_1_alg».proof.Proof.Ideal.Step0
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Tile0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.SqDist

variable (V : (c : Dev nD) → (b : Ref sig .tc) → Buf (Elt Ideal) ((c : Thread nD τ).loc b))

/-! ## Where the windows' blocks sit -/

theorem qidx : ∀ t : Fin cfg0.N, win0_0.index t 0 = 0 ∧ win0_0.index t 1 = t.val / 16 ∧ win0_0.index t 2 = 0 :=
  (by decide +kernel : ∀ t : Fin grid0.N, win0_0.index t 0 = 0 ∧ win0_0.index t 1 = t.val / 16 ∧ win0_0.index t 2 = 0)
theorem sidx : ∀ t : Fin cfg0.N, win0_1.index t 0 = 0 ∧ win0_1.index t 1 = 0 ∧ win0_1.index t 2 = t.val % 16 :=
  (by decide +kernel : ∀ t : Fin grid0.N, win0_1.index t 0 = 0 ∧ win0_1.index t 1 = 0 ∧ win0_1.index t 2 = t.val % 16)
theorem oidx : ∀ t : Fin cfg0.N, win0_2.index t 0 = 0 ∧ win0_2.index t 1 = t.val / 16 ∧ win0_2.index t 2 = 0 :=
  (by decide +kernel : ∀ t : Fin grid0.N, win0_2.index t 0 = 0 ∧ win0_2.index t 1 = t.val / 16 ∧ win0_2.index t 2 = 0)

/-- The query block at point `t` is rows 512·(t/16) … of the query array. -/
theorem tile_q (c : Dev nD) (t : Fin cfg0.N) (b : Fin 4) (r : Fin 512) (k : Fin 3) (hr : 512 * (t.val / 16) + r.val < 8192) :
    (tile V c 0 t : Vec Ideal S4x512x3 .f32) (ix3 b r k) = V c main_arg0 (ix3 b (⟨512 * (t.val / 16) + r.val, hr⟩ : Fin 8192) k) := by
  unfold tile
  rw [View.read_apply]
  show V c main_arg0 _ = V c main_arg0 _
  refine congrArg (V c main_arg0) (funext fun a => Fin.ext ?_)
  match a with
  | ⟨0, _⟩ => show win0_0.index t 0 * 4 + 1 * b.val = b.val; rw [(qidx t).1]; omega
  | ⟨1, _⟩ => show win0_0.index t 1 * 512 + 1 * r.val = 512 * (t.val / 16) + r.val; rw [(qidx t).2.1]; omega
  | ⟨2, _⟩ => show win0_0.index t 2 * 3 + 1 * k.val = k.val; rw [(qidx t).2.2]; omega

/-- The searched tile at point `t` is columns 512·(t%16) … of the (coordinate-major) searched array. -/
theorem tile_s (c : Dev nD) (t : Fin cfg0.N) (b : Fin 4) (k : Fin 3) (q : Fin 512) (hq : 512 * (t.val % 16) + q.val < 8192) :
    (tile V c 1 t : Vec Ideal S4x3x512 .f32) (ix3 b k q) = V c main_v0 (ix3 b k (⟨512 * (t.val % 16) + q.val, hq⟩ : Fin 8192)) := by
  unfold tile
  rw [View.read_apply]
  show V c main_v0 _ = V c main_v0 _
  refine congrArg (V c main_v0) (funext fun a => Fin.ext ?_)
  match a with
  | ⟨0, _⟩ => show win0_1.index t 0 * 4 + 1 * b.val = b.val; rw [(sidx t).1]; omega
  | ⟨1, _⟩ => show win0_1.index t 1 * 3 + 1 * k.val = k.val; rw [(sidx t).2.1]; omega
  | ⟨2, _⟩ => show win0_1.index t 2 * 512 + 1 * q.val = 512 * (t.val % 16) + q.val; rw [(sidx t).2.2]; omega

/-! ## The running minimum along a row -/

/-- The squared distance from query `n` to searched point `j` of batch `b`, off the arrays as the region finds them. -/
def dd (c : Dev nD) (b : Fin 4) (n j : Fin 8192) : EReal :=
  sqd (fun k => V c main_arg0 (ix3 b n k)) (fun k => V c main_v0 (ix3 b k j))

/-- The distances a tile's step sees are those from the point's query rows to the point's 512 searched points. -/
theorem sqd_tile (c : Dev nD) (n : ℕ) (hn : n < cfg0.N) (b : Fin 4) (r q : Fin 512) (nq js : Fin 8192)
    (hnq : nq.val = 512 * (n / 16) + r.val) (hjs : js.val = 512 * (n % 16) + q.val) :
    sqd (fun k => (tile V c 0 ⟨n, hn⟩ : Vec Ideal S4x512x3 .f32) (ix3 b r k)) (fun k => (tile V c 1 ⟨n, hn⟩ : Vec Ideal S4x3x512 .f32) (ix3 b k q))
      = dd V c b nq js := by
  obtain ⟨nqv, hnqv⟩ := nq
  obtain ⟨jsv, hjsv⟩ := js
  simp only at hnq hjs
  subst hnq; subst hjs
  unfold dd
  congr 1
  · funext k; exact tile_q V c ⟨n, hn⟩ b r k hnqv
  · funext k; exact tile_s V c ⟨n, hn⟩ b k q hjsv

/-- One tile's 512 distances, as a stretch of the searched set. -/
theorem tile_bounds (c : Dev nD) (n : ℕ) (hn : n < cfg0.N) (b : Fin 4) (r : Fin 512) (nq : Fin 8192)
    (hnq : nq.val = 512 * (n / 16) + r.val) (z : EReal) :
    (∀ q : Fin 512, z ≤ sqd (fun k => (tile V c 0 ⟨n, hn⟩ : Vec Ideal S4x512x3 .f32) (ix3 b r k))
        (fun k => (tile V c 1 ⟨n, hn⟩ : Vec Ideal S4x3x512 .f32) (ix3 b k q)))
      ↔ ∀ j : Fin 8192, 512 * (n % 16) ≤ j.val → j.val < 512 * (n % 16 + 1) → z ≤ dd V c b nq j := by
  constructor
  · intro H j h1 h2
    have hq : j.val - 512 * (n % 16) < 512 := by omega
    exact (H ⟨j.val - 512 * (n % 16), hq⟩).trans_eq (sqd_tile V c n hn b r ⟨_, hq⟩ nq j hnq (by simp only; omega))
  · intro H q
    have hj : 512 * (n % 16) + q.val < 8192 := by have := q.isLt; have := Nat.mod_lt n (show 0 < 16 by decide); omega
    exact (H ⟨_, hj⟩ (by simp only; omega) (by simp only; have := q.isLt; omega)).trans_eq (sqd_tile V c n hn b r q nq ⟨_, hj⟩ hnq rfl).symm

/-- The reset value is the top of the extended reals. -/
theorem top_apply (i : S4x512x1.Idx) : (top (F := Ideal)) i = (⊤ : EReal) := by
  show k0_pay1 (F := Ideal) i = ⊤
  unfold k0_pay1
  rw [shapeCast_self]
  exact Step0.inf_top

/-- After the tile at position `n` the scratch block at query row (b, r) has the lower bounds of the distances from
    that query to the first 512·(n%16 + 1) searched points. -/
theorem le_accAt (c : Dev nD) : ∀ (n : ℕ) (hn : n < cfg0.N) (b : Fin 4) (r : Fin 512) (nq : Fin 8192)
    (hnq : nq.val = 512 * (n / 16) + r.val) (z : EReal),
    z ≤ accAt V c n hn (ix3 b r 0) ↔ ∀ j : Fin 8192, j.val < 512 * (n % 16 + 1) → z ≤ dd V c b nq j := by
  intro n
  induction n with
  | zero =>
    intro hn b r nq hnq z
    show z ≤ step (tile V c 0 ⟨0, hn⟩) (tile V c 1 ⟨0, hn⟩) top (ix3 b r 0) ↔ _
    refine (Step0.le_step _ _ _ b r z).trans ?_
    rw [top_apply, tile_bounds V c 0 hn b r nq hnq z]
    constructor
    · rintro ⟨-, H⟩ j hj; exact H j (by omega) hj
    · intro H; exact ⟨le_top, fun j _ h2 => H j h2⟩
  | succ n ih =>
    intro hn b r nq hnq z
    show z ≤ step (tile V c 0 ⟨n + 1, hn⟩) (tile V c 1 ⟨n + 1, hn⟩)
      (if (n + 1) % 16 = 0 then top else accAt V c n (Nat.lt_of_succ_lt hn)) (ix3 b r 0) ↔ _
    refine (Step0.le_step _ _ _ b r z).trans ?_
    rw [tile_bounds V c (n + 1) hn b r nq hnq z]
    by_cases h0 : (n + 1) % 16 = 0
    · rw [if_pos h0, top_apply]
      constructor
      · rintro ⟨-, H⟩ j hj; exact H j (by omega) hj
      · intro H; exact ⟨le_top, fun j _ h2 => H j h2⟩
    · rw [if_neg h0, ih (Nat.lt_of_succ_lt hn) b r nq (by omega) z]
      constructor
      · rintro ⟨H1, H2⟩ j hj
        by_cases hlt : j.val < 512 * (n % 16 + 1)
        · exact H1 j hlt
        · exact H2 j (by omega) hj
      · intro H; exact ⟨fun j hj => H j (by omega), fun j _ h2 => H j h2⟩

/-! ## The result array -/

/-- What the last tile of a row writes back: at query row (b, r) the lower bounds of the distances from query
    512·(t/16) + r to every searched point. -/
theorem le_flushed (c : Dev nD) (t : Fin cfg0.N) (hf : (cfg0.win 2).flush t = true) (p : Fin 4) (r : Fin 512) (n : Fin 8192)
    (hn : n.val = 512 * (t.val / 16) + r.val) (z : EReal) :
    z ≤ (dat V c).after 2 t (ix3 p r 0) ↔ ∀ j : Fin 8192, z ≤ dd V c p n j := by
  have h15 : t.val % 16 = 15 := (flush0_2 t).mp hf
  rw [after_o]
  refine (le_accAt V c t.val t.isLt p r n hn z).trans ?_
  constructor
  · intro H j; exact H j (by have := j.isLt; omega)
  · intro H j _; exact H j

/-- Every entry of the result array lies in the block some last-tile point writes back. -/
theorem covered (c : Dev nD) (i : ((cfg0.win 2).arr.view.loc (c : Thread nD τ)).2.ty.Idx) :
    ∃ t : Fin cfg0.N, (cfg0.win 2).flush t = true ∧ i ∈ ((cfg0.win 2).blk t).view.set := by
  have h0 : (i 0 : Nat) < 4 := (i 0).isLt
  have h1 : (i 1 : Nat) < 8192 := (i 1).isLt
  have h2 : (i 2 : Nat) < 1 := (i 2).isLt
  have hN : cfg0.N = 256 := N_0
  have ht : 16 * ((i 1 : Nat) / 512) + 15 < cfg0.N := by rw [hN]; omega
  refine ⟨⟨16 * ((i 1 : Nat) / 512) + 15, ht⟩, (flush0_2 _).mpr (by simp only; omega), ?_⟩
  show i ∈ ((View.whole main_v2).slice (win0_2.rect ⟨16 * ((i 1 : Nat) / 512) + 15, ht⟩)).set
  rw [View.set_slice_whole, Rect.mem_set_unit]
  intro a
  have hx := oidx ⟨16 * ((i 1 : Nat) / 512) + 15, ht⟩
  match a with
  | ⟨0, _⟩ =>
    show win0_2.index ⟨_, ht⟩ 0 * win0_2.size 0 ≤ (i 0 : Nat) ∧ (i 0 : Nat) < win0_2.index ⟨_, ht⟩ 0 * win0_2.size 0 + win0_2.xsize (grid0.coords ⟨_, ht⟩) 0
    rw [hx.1, show win0_2.size 0 = 4 from rfl, show win0_2.xsize (grid0.coords ⟨16 * ((i 1 : Nat) / 512) + 15, ht⟩) 0 = 4 from rfl]; omega
  | ⟨1, _⟩ =>
    show win0_2.index ⟨_, ht⟩ 1 * win0_2.size 1 ≤ (i 1 : Nat) ∧ (i 1 : Nat) < win0_2.index ⟨_, ht⟩ 1 * win0_2.size 1 + win0_2.xsize (grid0.coords ⟨_, ht⟩) 1
    rw [hx.2.1, show win0_2.size 1 = 512 from rfl, show win0_2.xsize (grid0.coords ⟨16 * ((i 1 : Nat) / 512) + 15, ht⟩) 1 = 512 from rfl]
    simp only; omega
  | ⟨2, _⟩ =>
    show win0_2.index ⟨_, ht⟩ 2 * win0_2.size 2 ≤ (i 2 : Nat) ∧ (i 2 : Nat) < win0_2.index ⟨_, ht⟩ 2 * win0_2.size 2 + win0_2.xsize (grid0.coords ⟨_, ht⟩) 2
    rw [hx.2.2, show win0_2.size 2 = 1 from rfl, show win0_2.xsize (grid0.coords ⟨16 * ((i 1 : Nat) / 512) + 15, ht⟩) 2 = 1 from rfl]; omega

/-- THE RESULT ARRAY, entry by entry: after the run, entry (b, n, 0) has the lower bounds of the squared distances from
    query `n` of batch `b` to every searched point — it is their minimum. -/
theorem le_result (c : Dev nD) (b : Fin 4) (n : Fin 8192) (z : EReal) :
    z ≤ (dat V c).arrAt 2 cfg0.N (ix3 b n 0) ↔ ∀ j : Fin 8192, z ≤ dd V c b n j := by
  have key := (dat V c).arrAt_forall_of_cover 2
    (fun i v => ∀ (b : Fin 4) (n : Fin 8192), i = ix3 b n 0 → ∀ z : EReal, z ≤ (v : EReal) ↔ ∀ j : Fin 8192, z ≤ dd V c b n j)
    (fun t hf y b n hi z => by
      obtain ⟨p, r, rfl⟩ : ∃ (p : Fin 4) (r : Fin 512), y = (ix3 p r 0 : S4x512x1.Idx) :=
        ⟨y 0, y 1, funext fun a => by
          match a with
          | ⟨0, _⟩ => rfl
          | ⟨1, _⟩ => rfl
          | ⟨2, _⟩ => exact Fin.ext (by have h2 : (y 2).val < 1 := (y 2).isLt; show (y 2).val = 0; omega)⟩
      have hx := oidx t
      have h0 : win0_2.index t 0 * 4 + 1 * p.val = b.val := congrArg (fun i : S4x8192x1.Idx => (i 0).val) hi
      have h1 : win0_2.index t 1 * 512 + 1 * r.val = n.val := congrArg (fun i : S4x8192x1.Idx => (i 1).val) hi
      rw [hx.1] at h0
      rw [hx.2.1] at h1
      obtain rfl : b = p := Fin.ext (by omega)
      show z ≤ (dat V c).after 2 t (ix3 b r 0) ↔ _
      exact le_flushed V c t hf b r n (by omega) z)
    (covered c) (ix3 b n 0)
  exact key b n rfl z

end Cert.KernelIdeal.Tile0

end
-- ==== Proof.Ideal.Step1.lean ====
/-
  One step of tile kernel 1's running minimum, read at an entry by its lower bounds: a number lies below the
  stepped minimum at query row (b, r) exactly when it lies below the previous minimum there and below the squared
  distance from that query row to every one of the tile's 512 points.
-/
import proofs.«111591_j44418551775684_1_alg».proof.Proof.Gen.KernelIdeal.Skeleton
import proofs.«111591_j44418551775684_1_alg».proof.Proof.LibMinAxis
import proofs.«111591_j44418551775684_1_alg».proof.Proof.SqDist
import Idealize.ShloMosaic.Lib.ValueIdx
import Idealize.ShloMosaic.Lib.Pipeline.Value
import Idealize.ShloMosaic.PureOps.Ideal.Laws

set_option maxRecDepth 16384

noncomputable section

namespace Cert.KernelIdeal.Step1

open Idealize.ShloMosaic Idealize.ShloMosaic.ValueIdx Cert.KernelIdeal Cert.KernelIdeal.Gen Cert.SqDist

/-- Entry `(p, q)` of an `[a, b]` matrix with coordinate `k` of the dropped last axis put back is `(p, q, k)`. -/
theorem lift_last {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The +inf word is the top of the extended reals. -/
theorem inf_top : Ideal.ofBits .f32 0x7F800000#32 = (⊤ : EReal) := by simp [Ideal.ofBits, Ideal.ieee]

/-! ## The layout steps of the body, each read at an index -/

/-- A `[4, 512]` matrix written as a column stack `[4, 512, 1]`. -/
theorem col_apply {α : Type} (v : S4x512.Idx → α) (h : S4x512.ShapeCasts S4x512x1) (b : Fin 4) (r : Fin 512) :
    shapeCast S4x512x1 v h (ix3 b r 0) = v (ix2 b r) :=
  shapeCast_apply v h _ _ (by
    rw [Shape.rowMajor_val_two, Shape.rowMajor_val_three]
    show b.val * 512 + r.val = (b.val * 512 + r.val) * 1 + 0
    omega)

/-- A `[4, 512]` matrix written as a row stack `[4, 1, 512]`. -/
theorem row_apply {α : Type} (v : S4x512.Idx → α) (h : S4x512.ShapeCasts S4x1x512) (b : Fin 4) (q : Fin 512) :
    shapeCast S4x1x512 v h (ix3 b 0 q) = v (ix2 b q) :=
  shapeCast_apply v h _ _ (by
    rw [Shape.rowMajor_val_two, Shape.rowMajor_val_three]
    show b.val * 512 + q.val = (b.val * 1 + 0) * 512 + q.val
    omega)

/-- The column stack stretched along the last axis. -/
theorem stretch_col {α : Type} (v : S4x512x1.Idx → α) (h : S4x512x1.Broadcasts S4x512x512) (b : Fin 4) (r q : Fin 512) :
    broadcastTo S4x512x512 v h (ix3 b r q) = v (ix3 b r 0) :=
  broadcastTo_apply v h _ _ fun a => by fin_cases a <;> rfl

/-- The row stack stretched along the middle axis. -/
theorem stretch_row {α : Type} (v : S4x1x512.Idx → α) (h : S4x1x512.Broadcasts S4x512x512) (b : Fin 4) (r q : Fin 512) :
    broadcastTo S4x512x512 v h (ix3 b r q) = v (ix3 b 0 q) :=
  broadcastTo_apply v h _ _ fun a => by fin_cases a <;> rfl

/-! ## The three sums over the coordinates -/

/-- |a|² of query row (b, r): the lane sum of the squares. -/
theorem sq_query (x : FVec Ideal S4x512x3 .f32) (hφ : FKind.Formats .f32) (hacc : (0x00000000#32 : BitVec 32) = 0x00000000#32)
    (b : Fin 4) (r : Fin 512) :
    multiReduction .add [2] S4x512 (mulf x x) 0x00000000#32 Facts₀.reduces_S4x512x3_S4x512 hφ hacc (ix2 b r)
      = ∑ k : Fin 3, x (ix3 b r k) * x (ix3 b r k) := by
  refine (Ideal.multiReduction_add_single (mulf x x) _ Facts₀.reduces_S4x512x3_S4x512 hφ hacc (ix2 b r)).trans ?_
  show (∑ k : Fin 3, _) = _
  exact Finset.sum_congr rfl fun k _ => congrArg (mulf x x) (lift_last Facts₀.reduces_S4x512x3_S4x512 b r k)

/-- |b|² of the tile's point (b, q): the sum of the squares down the coordinate axis. -/
theorem sq_point (x : FVec Ideal S4x3x512 .f32) (hφ : FKind.Formats .f32) (hacc : (0x00000000#32 : BitVec 32) = 0x00000000#32)
    (b : Fin 4) (q : Fin 512) :
    multiReduction .add [1] S4x512 (mulf x x) 0x00000000#32 Facts₀.reduces_S4x3x512_S4x512 hφ hacc (ix2 b q)
      = ∑ k : Fin 3, x (ix3 b k q) * x (ix3 b k q) := by
  refine (Ideal.multiReduction_add_single (mulf x x) _ Facts₀.reduces_S4x3x512_S4x512 hφ hacc (ix2 b q)).trans ?_
  show (∑ k : Fin 3, _) = _
  exact Finset.sum_congr rfl fun k _ => congrArg (mulf x x) (Cert.LibMinAxis.lift_mid Facts₀.reduces_S4x3x512_S4x512 b q k)

abbrev DD := dot_S4x512x3_S4x3x512_S4x512x512_2_1_1_2_0_0

theorem lhs_0 (i : S4x512x512.Idx) (q : DD.contr.Idx) : (DD.lhsIdx i q 0).val = (i 0).val := by
  unfold DotDims.lhsIdx
  rw [dif_pos (show (0 : Fin S4x512x3.rank) ∈ DD.lhsBatch by decide)]
  rfl
theorem lhs_1 (i : S4x512x512.Idx) (q : DD.contr.Idx) : (DD.lhsIdx i q 1).val = (i 1).val := by
  unfold DotDims.lhsIdx
  rw [dif_neg (show ¬(1 : Fin S4x512x3.rank) ∈ DD.lhsBatch by decide), dif_pos (show (1 : Fin S4x512x3.rank) ∈ DD.lhsNonContracting by decide)]
  rfl
theorem lhs_2 (i : S4x512x512.Idx) (q : DD.contr.Idx) : (DD.lhsIdx i q 2).val = (q ⟨0, by decide⟩).val :=
  DD.lhsIdx_val_of_single rfl i q
theorem rhs_0 (i : S4x512x512.Idx) (q : DD.contr.Idx) : (DD.rhsIdx i q 0).val = (i 0).val := by
  unfold DotDims.rhsIdx
  rw [dif_pos (show (0 : Fin S4x3x512.rank) ∈ DD.rhsBatch by decide)]
  rfl
theorem rhs_1 (i : S4x512x512.Idx) (q : DD.contr.Idx) : (DD.rhsIdx i q 1).val = (q ⟨0, by decide⟩).val :=
  DD.rhsIdx_val_of_single rfl i q
theorem rhs_2 (i : S4x512x512.Idx) (q : DD.contr.Idx) : (DD.rhsIdx i q 2).val = (i 2).val := by
  unfold DotDims.rhsIdx
  rw [dif_neg (show ¬(2 : Fin S4x3x512.rank) ∈ DD.rhsBatch by decide), dif_pos (show (2 : Fin S4x3x512.rank) ∈ DD.rhsNonContracting by decide)]
  rfl

/-- a·b for query row (b, r) and the tile's point (b, q): the batched product into the zero accumulator. -/
theorem inner_apply (l : FVec Ideal S4x512x3 .bf16) (rr : FVec Ideal S4x3x512 .bf16) (b : Fin 4) (r q : Fin 512) :
    matmul DD none l rr (constant S4x512x512 .f32 0x00000000#32) (ix3 b r q) = ∑ k : Fin 3, l (ix3 b r k) * rr (ix3 b k q) := by
  show FloatOps.matmul DD none l rr (constant S4x512x512 .f32 0x00000000#32) (ix3 b r q) = _
  rw [Ideal.matmul_constant_zero_apply, ← Equiv.sum_comp (contrEquiv1 DD 3 rfl rfl).symm]
  refine Finset.sum_congr rfl fun k _ => ?_
  have hk := contrEquiv1_symm_val DD 3 rfl rfl k
  have el : DD.lhsIdx (ix3 b r q) ((contrEquiv1 DD 3 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : DD.rhsIdx (ix3 b r q) ((contrEquiv1 DD 3 rfl rfl).symm k) = ix3 b k q := funext fun a => Fin.ext (by
    match a with
    | ⟨0, _⟩ => exact rhs_0 _ _
    | ⟨1, _⟩ => exact (rhs_1 _ _).trans hk
    | ⟨2, _⟩ => exact rhs_2 _ _)
  rw [el, er]

/-- The row minimum of a `[4, 512, 512]` stack along its last axis, from +inf, by its lower bounds. -/
theorem le_rowmin (v : FVec Ideal S4x512x512 .f32) (hφ : FKind.Formats .f32)
    (hacc : (0x7F800000#32 : BitVec 32) = FKind.minimumf.neutral .f32 hφ) (b : Fin 4) (r : Fin 512) (z : EReal) :
    z ≤ multiReduction .minimumf [2] S4x512 v 0x7F800000#32 Facts₀.reduces_S4x512x512_S4x512 hφ hacc (ix2 b r)
      ↔ ∀ q : Fin 512, z ≤ v (ix3 b r q) := by
  refine (Cert.LibMinAxis.le_multiReduction_min_single v _ Facts₀.reduces_S4x512x512_S4x512 hφ hacc (ix2 b r) z).trans ?_
  rw [inf_top]
  refine ⟨fun H q => ?_, fun H => ⟨le_top, fun k => ?_⟩⟩
  · exact (congrArg (fun i => z ≤ v i) (lift_last Facts₀.reduces_S4x512x512_S4x512 b r q)).mp (H.2 q)
  · exact (congrArg (fun i => z ≤ v i) (lift_last Facts₀.reduces_S4x512x512_S4x512 b r k)).mpr (H ⟨k.val, k.isLt⟩)

/-! ## The step -/

theorem le_step (x0 : Vec Ideal S4x512x3 .f32) (x1 : Vec Ideal S4x3x512 .f32) (prev : Vec Ideal S4x512x1 .f32)
    (b : Fin 4) (r : Fin 512) (z : EReal) :
    z ≤ k1_pay2 (F := Ideal) x0 x1 prev (ix3 b r 0)
      ↔ z ≤ prev (ix3 b r 0) ∧ ∀ q : Fin 512, z ≤ sqd (fun k => x0 (ix3 b r k)) (fun k => x1 (ix3 b k q)) := by
  unfold k1_pay2
  dsimp only
  rw [shapeCast_self, minimumf_apply, le_min_iff]
  refine and_congr Iff.rfl ?_
  rw [col_apply]
  refine (le_rowmin _ _ _ b r z).trans (forall_congr' fun q => ?_)
  rw [subf_apply, addf_apply, mulf_apply, broadcast_apply, stretch_col, stretch_row, col_apply, row_apply,
    sq_query, sq_point, inner_apply, shapeCast_self]
  unfold sqd
  exact Iff.rfl

end Cert.KernelIdeal.Step1

end
-- ==== Proof.Ideal.RowMin1.lean ====
/-
  Tile kernel 1's result array, entry by entry. Along a row of the grid the scratch block after tile number j holds,
  at query row (b, r), a number whose lower bounds are those of the squared distances from that query to the first
  512·(j+1) points of the searched set; after the last tile, to all 8192 of them. That block is what the last tile of the
  row writes back, and the written blocks tile the result array.
-/
import proofs.«111591_j44418551775684_1_alg».proof.Proof.Gen.KernelIdeal.Launch
import proofs.«111591_j44418551775684_1_alg».proof.Proof.Gen.KernelIdeal.Skeleton
import proofs.«111591_j44418551775684_1_alg».proof.Proof.Gen.KernelIdeal.Points
import proofs.«111591_j44418551775684_1_alg».proof.Proof.Ideal.Row1
import proofs.«111591_j44418551775684_1_alg».proof.Proof.Ideal.Step1
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Tile1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.SqDist

variable (V : (c : Dev nD) → (b : Ref sig .tc) → Buf (Elt Ideal) ((c : Thread nD τ).loc b))

/-! ## Where the windows' blocks sit -/

theorem qidx : ∀ t : Fin cfg1.N, win1_0.index t 0 = 0 ∧ win1_0.index t 1 = t.val / 16 ∧ win1_0.index t 2 = 0 :=
  (by decide +kernel : ∀ t : Fin grid1.N, win1_0.index t 0 = 0 ∧ win1_0.index t 1 = t.val / 16 ∧ win1_0.index t 2 = 0)
theorem sidx : ∀ t : Fin cfg1.N, win1_1.index t 0 = 0 ∧ win1_1.index t 1 = 0 ∧ win1_1.index t 2 = t.val % 16 :=
  (by decide +kernel : ∀ t : Fin grid1.N, win1_1.index t 0 = 0 ∧ win1_1.index t 1 = 0 ∧ win1_1.index t 2 = t.val % 16)
theorem oidx : ∀ t : Fin cfg1.N, win1_2.index t 0 = 0 ∧ win1_2.index t 1 = t.val / 16 ∧ win1_2.index t 2 = 0 :=
  (by decide +kernel : ∀ t : Fin grid1.N, win1_2.index t 0 = 0 ∧ win1_2.index t 1 = t.val / 16 ∧ win1_2.index t 2 = 0)

/-- The query block at point `t` is rows 512·(t/16) … of the query array. -/
theorem tile_q (c : Dev nD) (t : Fin cfg1.N) (b : Fin 4) (r : Fin 512) (k : Fin 3) (hr : 512 * (t.val / 16) + r.val < 8192) :
    (tile V c 0 t : Vec Ideal S4x512x3 .f32) (ix3 b r k) = V c main_arg1 (ix3 b (⟨512 * (t.val / 16) + r.val, hr⟩ : Fin 8192) k) := by
  unfold tile
  rw [View.read_apply]
  show V c main_arg1 _ = V c main_arg1 _
  refine congrArg (V c main_arg1) (funext fun a => Fin.ext ?_)
  match a with
  | ⟨0, _⟩ => show win1_0.index t 0 * 4 + 1 * b.val = b.val; rw [(qidx t).1]; omega
  | ⟨1, _⟩ => show win1_0.index t 1 * 512 + 1 * r.val = 512 * (t.val / 16) + r.val; rw [(qidx t).2.1]; omega
  | ⟨2, _⟩ => show win1_0.index t 2 * 3 + 1 * k.val = k.val; rw [(qidx t).2.2]; omega

/-- The searched tile at point `t` is columns 512·(t%16) … of the (coordinate-major) searched array. -/
theorem tile_s (c : Dev nD) (t : Fin cfg1.N) (b : Fin 4) (k : Fin 3) (q : Fin 512) (hq : 512 * (t.val % 16) + q.val < 8192) :
    (tile V c 1 t : Vec Ideal S4x3x512 .f32) (ix3 b k q) = V c main_v1 (ix3 b k (⟨512 * (t.val % 16) + q.val, hq⟩ : Fin 8192)) := by
  unfold tile
  rw [View.read_apply]
  show V c main_v1 _ = V c main_v1 _
  refine congrArg (V c main_v1) (funext fun a => Fin.ext ?_)
  match a with
  | ⟨0, _⟩ => show win1_1.index t 0 * 4 + 1 * b.val = b.val; rw [(sidx t).1]; omega
  | ⟨1, _⟩ => show win1_1.index t 1 * 3 + 1 * k.val = k.val; rw [(sidx t).2.1]; omega
  | ⟨2, _⟩ => show win1_1.index t 2 * 512 + 1 * q.val = 512 * (t.val % 16) + q.val; rw [(sidx t).2.2]; omega

/-! ## The running minimum along a row -/

/-- The squared distance from query `n` to searched point `j` of batch `b`, off the arrays as the region finds them. -/
def dd (c : Dev nD) (b : Fin 4) (n j : Fin 8192) : EReal :=
  sqd (fun k => V c main_arg1 (ix3 b n k)) (fun k => V c main_v1 (ix3 b k j))

/-- The distances a tile's step sees are those from the point's query rows to the point's 512 searched points. -/
theorem sqd_tile (c : Dev nD) (n : ℕ) (hn : n < cfg1.N) (b : Fin 4) (r q : Fin 512) (nq js : Fin 8192)
    (hnq : nq.val = 512 * (n / 16) + r.val) (hjs : js.val = 512 * (n % 16) + q.val) :
    sqd (fun k => (tile V c 0 ⟨n, hn⟩ : Vec Ideal S4x512x3 .f32) (ix3 b r k)) (fun k => (tile V c 1 ⟨n, hn⟩ : Vec Ideal S4x3x512 .f32) (ix3 b k q))
      = dd V c b nq js := by
  obtain ⟨nqv, hnqv⟩ := nq
  obtain ⟨jsv, hjsv⟩ := js
  simp only at hnq hjs
  subst hnq; subst hjs
  unfold dd
  congr 1
  · funext k; exact tile_q V c ⟨n, hn⟩ b r k hnqv
  · funext k; exact tile_s V c ⟨n, hn⟩ b k q hjsv

/-- One tile's 512 distances, as a stretch of the searched set. -/
theorem tile_bounds (c : Dev nD) (n : ℕ) (hn : n < cfg1.N) (b : Fin 4) (r : Fin 512) (nq : Fin 8192)
    (hnq : nq.val = 512 * (n / 16) + r.val) (z : EReal) :
    (∀ q : Fin 512, z ≤ sqd (fun k => (tile V c 0 ⟨n, hn⟩ : Vec Ideal S4x512x3 .f32) (ix3 b r k))
        (fun k => (tile V c 1 ⟨n, hn⟩ : Vec Ideal S4x3x512 .f32) (ix3 b k q)))
      ↔ ∀ j : Fin 8192, 512 * (n % 16) ≤ j.val → j.val < 512 * (n % 16 + 1) → z ≤ dd V c b nq j := by
  constructor
  · intro H j h1 h2
    have hq : j.val - 512 * (n % 16) < 512 := by omega
    exact (H ⟨j.val - 512 * (n % 16), hq⟩).trans_eq (sqd_tile V c n hn b r ⟨_, hq⟩ nq j hnq (by simp only; omega))
  · intro H q
    have hj : 512 * (n % 16) + q.val < 8192 := by have := q.isLt; have := Nat.mod_lt n (show 0 < 16 by decide); omega
    exact (H ⟨_, hj⟩ (by simp only; omega) (by simp only; have := q.isLt; omega)).trans_eq (sqd_tile V c n hn b r q nq ⟨_, hj⟩ hnq rfl).symm

/-- The reset value is the top of the extended reals. -/
theorem top_apply (i : S4x512x1.Idx) : (top (F := Ideal)) i = (⊤ : EReal) := by
  show k1_pay1 (F := Ideal) i = ⊤
  unfold k1_pay1
  rw [shapeCast_self]
  exact Step1.inf_top

/-- After the tile at position `n` the scratch block at query row (b, r) has the lower bounds of the distances from
    that query to the first 512·(n%16 + 1) searched points. -/
theorem le_accAt (c : Dev nD) : ∀ (n : ℕ) (hn : n < cfg1.N) (b : Fin 4) (r : Fin 512) (nq : Fin 8192)
    (hnq : nq.val = 512 * (n / 16) + r.val) (z : EReal),
    z ≤ accAt V c n hn (ix3 b r 0) ↔ ∀ j : Fin 8192, j.val < 512 * (n % 16 + 1) → z ≤ dd V c b nq j := by
  intro n
  induction n with
  | zero =>
    intro hn b r nq hnq z
    show z ≤ step (tile V c 0 ⟨0, hn⟩) (tile V c 1 ⟨0, hn⟩) top (ix3 b r 0) ↔ _
    refine (Step1.le_step _ _ _ b r z).trans ?_
    rw [top_apply, tile_bounds V c 0 hn b r nq hnq z]
    constructor
    · rintro ⟨-, H⟩ j hj; exact H j (by omega) hj
    · intro H; exact ⟨le_top, fun j _ h2 => H j h2⟩
  | succ n ih =>
    intro hn b r nq hnq z
    show z ≤ step (tile V c 0 ⟨n + 1, hn⟩) (tile V c 1 ⟨n + 1, hn⟩)
      (if (n + 1) % 16 = 0 then top else accAt V c n (Nat.lt_of_succ_lt hn)) (ix3 b r 0) ↔ _
    refine (Step1.le_step _ _ _ b r z).trans ?_
    rw [tile_bounds V c (n + 1) hn b r nq hnq z]
    by_cases h0 : (n + 1) % 16 = 0
    · rw [if_pos h0, top_apply]
      constructor
      · rintro ⟨-, H⟩ j hj; exact H j (by omega) hj
      · intro H; exact ⟨le_top, fun j _ h2 => H j h2⟩
    · rw [if_neg h0, ih (Nat.lt_of_succ_lt hn) b r nq (by omega) z]
      constructor
      · rintro ⟨H1, H2⟩ j hj
        by_cases hlt : j.val < 512 * (n % 16 + 1)
        · exact H1 j hlt
        · exact H2 j (by omega) hj
      · intro H; exact ⟨fun j hj => H j (by omega), fun j _ h2 => H j h2⟩

/-! ## The result array -/

/-- What the last tile of a row writes back: at query row (b, r) the lower bounds of the distances from query
    512·(t/16) + r to every searched point. -/
theorem le_flushed (c : Dev nD) (t : Fin cfg1.N) (hf : (cfg1.win 2).flush t = true) (p : Fin 4) (r : Fin 512) (n : Fin 8192)
    (hn : n.val = 512 * (t.val / 16) + r.val) (z : EReal) :
    z ≤ (dat V c).after 2 t (ix3 p r 0) ↔ ∀ j : Fin 8192, z ≤ dd V c p n j := by
  have h15 : t.val % 16 = 15 := (flush1_2 t).mp hf
  rw [after_o]
  refine (le_accAt V c t.val t.isLt p r n hn z).trans ?_
  constructor
  · intro H j; exact H j (by have := j.isLt; omega)
  · intro H j _; exact H j

/-- Every entry of the result array lies in the block some last-tile point writes back. -/
theorem covered (c : Dev nD) (i : ((cfg1.win 2).arr.view.loc (c : Thread nD τ)).2.ty.Idx) :
    ∃ t : Fin cfg1.N, (cfg1.win 2).flush t = true ∧ i ∈ ((cfg1.win 2).blk t).view.set := by
  have h0 : (i 0 : Nat) < 4 := (i 0).isLt
  have h1 : (i 1 : Nat) < 8192 := (i 1).isLt
  have h2 : (i 2 : Nat) < 1 := (i 2).isLt
  have hN : cfg1.N = 256 := N_1
  have ht : 16 * ((i 1 : Nat) / 512) + 15 < cfg1.N := by rw [hN]; omega
  refine ⟨⟨16 * ((i 1 : Nat) / 512) + 15, ht⟩, (flush1_2 _).mpr (by simp only; omega), ?_⟩
  show i ∈ ((View.whole main_v4).slice (win1_2.rect ⟨16 * ((i 1 : Nat) / 512) + 15, ht⟩)).set
  rw [View.set_slice_whole, Rect.mem_set_unit]
  intro a
  have hx := oidx ⟨16 * ((i 1 : Nat) / 512) + 15, ht⟩
  match a with
  | ⟨0, _⟩ =>
    show win1_2.index ⟨_, ht⟩ 0 * win1_2.size 0 ≤ (i 0 : Nat) ∧ (i 0 : Nat) < win1_2.index ⟨_, ht⟩ 0 * win1_2.size 0 + win1_2.xsize (grid1.coords ⟨_, ht⟩) 0
    rw [hx.1, show win1_2.size 0 = 4 from rfl, show win1_2.xsize (grid1.coords ⟨16 * ((i 1 : Nat) / 512) + 15, ht⟩) 0 = 4 from rfl]; omega
  | ⟨1, _⟩ =>
    show win1_2.index ⟨_, ht⟩ 1 * win1_2.size 1 ≤ (i 1 : Nat) ∧ (i 1 : Nat) < win1_2.index ⟨_, ht⟩ 1 * win1_2.size 1 + win1_2.xsize (grid1.coords ⟨_, ht⟩) 1
    rw [hx.2.1, show win1_2.size 1 = 512 from rfl, show win1_2.xsize (grid1.coords ⟨16 * ((i 1 : Nat) / 512) + 15, ht⟩) 1 = 512 from rfl]
    simp only; omega
  | ⟨2, _⟩ =>
    show win1_2.index ⟨_, ht⟩ 2 * win1_2.size 2 ≤ (i 2 : Nat) ∧ (i 2 : Nat) < win1_2.index ⟨_, ht⟩ 2 * win1_2.size 2 + win1_2.xsize (grid1.coords ⟨_, ht⟩) 2
    rw [hx.2.2, show win1_2.size 2 = 1 from rfl, show win1_2.xsize (grid1.coords ⟨16 * ((i 1 : Nat) / 512) + 15, ht⟩) 2 = 1 from rfl]; omega

/-- THE RESULT ARRAY, entry by entry: after the run, entry (b, n, 0) has the lower bounds of the squared distances from
    query `n` of batch `b` to every searched point — it is their minimum. -/
theorem le_result (c : Dev nD) (b : Fin 4) (n : Fin 8192) (z : EReal) :
    z ≤ (dat V c).arrAt 2 cfg1.N (ix3 b n 0) ↔ ∀ j : Fin 8192, z ≤ dd V c b n j := by
  have key := (dat V c).arrAt_forall_of_cover 2
    (fun i v => ∀ (b : Fin 4) (n : Fin 8192), i = ix3 b n 0 → ∀ z : EReal, z ≤ (v : EReal) ↔ ∀ j : Fin 8192, z ≤ dd V c b n j)
    (fun t hf y b n hi z => by
      obtain ⟨p, r, rfl⟩ : ∃ (p : Fin 4) (r : Fin 512), y = (ix3 p r 0 : S4x512x1.Idx) :=
        ⟨y 0, y 1, funext fun a => by
          match a with
          | ⟨0, _⟩ => rfl
          | ⟨1, _⟩ => rfl
          | ⟨2, _⟩ => exact Fin.ext (by have h2 : (y 2).val < 1 := (y 2).isLt; show (y 2).val = 0; omega)⟩
      have hx := oidx t
      have h0 : win1_2.index t 0 * 4 + 1 * p.val = b.val := congrArg (fun i : S4x8192x1.Idx => (i 0).val) hi
      have h1 : win1_2.index t 1 * 512 + 1 * r.val = n.val := congrArg (fun i : S4x8192x1.Idx => (i 1).val) hi
      rw [hx.1] at h0
      rw [hx.2.1] at h1
      obtain rfl : b = p := Fin.ext (by omega)
      show z ≤ (dat V c).after 2 t (ix3 b r 0) ↔ _
      exact le_flushed V c t hf b r n (by omega) z)
    (covered c) (ix3 b n 0)
  exact key b n rfl z

end Cert.KernelIdeal.Tile1

end
-- ==== Proof.LibMinStack.lean ====
/-
  Minima along one axis of a three-axis stack, by lower bounds and by coordinates. A stack `[a, b, c]` reduced by a
  minimum along its LAST axis, read at `(p, q)`: a number lies below the result exactly when it lies below the starting
  value and below the entry `(p, q, k)` for every `k` — for a vector multi-reduction of kind minimum and for the host's
  reduce with a minimum body; and the same along the MIDDLE axis, entries `(p, k, q)`, for the host's reduce. Over the
  extended reals; no finiteness is needed.
-/
import Idealize.ShloMosaic.Lib.ValueIdx
import Idealize.ShloMosaic.PureOps.Ideal.Laws
import proofs.«111591_j44418551775684_1_alg».proof.Proof.LibMinAxis

noncomputable section

namespace Cert.LibMinStack

open Idealize.ShloMosaic Idealize.ShloMosaic.ValueIdx

/-- Entry `(p, q)` of an `[a, b]` matrix with coordinate `k` of the dropped LAST axis put back is `(p, q, k)`. -/
theorem lift_last {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- A multi-reduction of kind minimum along the last axis, at `(p, q)`. -/
theorem le_multiReduction_min_last {a b c : ℕ} {φ : FTy} (v : FVec Ideal (⟨3, ![a, b, c]⟩ : Shape) φ) (acc : BitVec φ.bits)
    (h : (⟨3, ![a, b, c]⟩ : Shape).Reduces [2] (⟨2, ![a, b]⟩ : Shape)) (hφ : FKind.Formats φ)
    (hacc : acc = FKind.minimumf.neutral φ hφ) (p : Fin a) (q : Fin b) (z : EReal) :
    z ≤ multiReduction .minimumf [2] (⟨2, ![a, b]⟩ : Shape) v acc h hφ hacc (ix2 p q)
      ↔ z ≤ Ideal.ofBits φ acc ∧ ∀ k : Fin c, z ≤ v (ix3 p q k) := by
  refine (Cert.LibMinAxis.le_multiReduction_min_single v acc h hφ hacc (ix2 p q) z).trans (and_congr Iff.rfl ?_)
  exact ⟨fun H k => (congrArg (fun i => z ≤ v i) (lift_last h p q ⟨k.val, k.isLt⟩)).mp (H ⟨k.val, k.isLt⟩),
    fun H k => (congrArg (fun i => z ≤ v i) (lift_last h p q k)).mpr (H ⟨k.val, k.isLt⟩)⟩

/-- The host's reduce with a minimum body along the last axis, at `(p, q)`. -/
theorem le_hostReduce_min_last {a b c : ℕ} {u : Shape} {φ : FTy} (x : (⟨3, ![a, b, c]⟩ : Shape).Idx → Ideal φ)
    (init : u.Idx → Ideal φ) (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) (z : EReal) :
    z ≤ Host.reduce (FloatOps.minimumf (F := Ideal) (φ := φ)) x init h' hu (ix2 p q)
      ↔ z ≤ init (Shape.Idx.first hu) ∧ ∀ k : Fin c, z ≤ x (ix3 p q k) := by
  refine (Cert.LibMinAxis.le_hostReduce_min_single x init h' h hu (ix2 p q) z).trans (and_congr Iff.rfl ?_)
  exact ⟨fun H k => (congrArg (fun i => z ≤ x i) (lift_last h p q ⟨k.val, k.isLt⟩)).mp (H ⟨k.val, k.isLt⟩),
    fun H k => (congrArg (fun i => z ≤ x i) (lift_last h p q k)).mpr (H ⟨k.val, k.isLt⟩)⟩

/-- The host's reduce with a minimum body along the middle axis, at `(p, q)`. -/
theorem le_hostReduce_min_mid {a b c : ℕ} {u : Shape} {φ : FTy} (x : (⟨3, ![a, b, c]⟩ : Shape).Idx → Ideal φ)
    (init : u.Idx → Ideal φ) (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel) (p : Fin a) (q : Fin c) (z : EReal) :
    z ≤ Host.reduce (FloatOps.minimumf (F := Ideal) (φ := φ)) x init h' hu (ix2 p q)
      ↔ z ≤ init (Shape.Idx.first hu) ∧ ∀ k : Fin b, z ≤ x (ix3 p k q) := by
  refine (Cert.LibMinAxis.le_hostReduce_min_single x init h' h hu (ix2 p q) z).trans (and_congr Iff.rfl ?_)
  exact ⟨fun H k => (congrArg (fun i => z ≤ x i) (Cert.LibMinAxis.lift_mid h p q ⟨k.val, k.isLt⟩)).mp (H ⟨k.val, k.isLt⟩),
    fun H k => (congrArg (fun i => z ≤ x i) (Cert.LibMinAxis.lift_mid h p q k)).mpr (H ⟨k.val, k.isLt⟩)⟩

end Cert.LibMinStack

end
-- ==== Proof.RefRead.lean ====
/-
  The reference's two vectors of minima, read at an index by their lower bounds. Its distance stack holds, at
  (b, n, m), the squared distance |x0[b,n] − x1[b,m]|² in the expanded spelling; reduced by a minimum from +inf along
  its last axis it gives, at (b, n), a number whose lower bounds are those of the distances from x0[b,n] to every
  x1[b,m]; reduced along its middle axis, at (b, m), those of the distances from every x0[b,n] to x1[b,m].
-/
import proofs.«111591_j44418551775684_1_alg».proof.Proof.Gen.ReferenceIdeal.Read
import proofs.«111591_j44418551775684_1_alg».proof.Proof.LibMinStack
import proofs.«111591_j44418551775684_1_alg».proof.Proof.SqDist

set_option maxRecDepth 16384

noncomputable section

namespace Cert.ReferenceIdeal.Dist

open Idealize.ShloMosaic Idealize.ShloMosaic.ValueIdx Cert.ReferenceIdeal Cert.ReferenceIdeal.Read Cert.SqDist

/-- The +inf word is the top of the extended reals. -/
theorem inf_top : Ideal.ofBits .f32 0x7F800000#32 = (⊤ : EReal) := by simp [Ideal.ofBits, Ideal.ieee]

/-- The distance stack at (b, n, m). -/
theorem d_apply (x0 x1 : (⟨S4x8192x3, .f32⟩ : BufTy).Contents (Elt Ideal)) (b : Fin 4) (n m : Fin 8192) :
    val_main_v12 (F := Ideal) x0 x1 (ix3 b n m) = sqd (fun k => x0 (ix3 b n k)) (fun k => x1 (ix3 b m k)) := by
  rw [val_main_v12_apply, val_main_v9_apply, val_main_v11_apply, val_main_v7_apply, val_main_v8_apply, val_main_v5_apply,
    val_main_v6_apply, val_main_v1_apply, val_main_v3_apply, val_main_v4_apply, val_main_v10_apply, val_main_cst_1_apply,
    val_main_cst_apply, val_main_cst_0_apply]
  simp only [val_main_v0_apply, val_main_v2_apply]
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  simp only [e1, e2, e3, e4, Ideal.ofBits_def, Ideal.ofBits_zero_f32, zero_add]
  unfold sqd
  rfl

/-- The first vector of minima at (b, n): the lower bounds of the distances from x0[b,n] to every x1[b,m]. -/
theorem le_dist1 (x0 x1 : (⟨S4x8192x3, .f32⟩ : BufTy).Contents (Elt Ideal)) (b : Fin 4) (n : Fin 8192) (z : EReal) :
    z ≤ val_main_v13 (F := Ideal) x0 x1 (ix2 b n)
      ↔ ∀ m : Fin 8192, z ≤ sqd (fun k => x0 (ix3 b n k)) (fun k => x1 (ix3 b m k)) := by
  unfold val_main_v13
  refine (Cert.LibMinStack.le_hostReduce_min_last _ _ Facts₀.reducesTo_S4x8192x8192_S4x8192_d2 (by decide) Facts₀.h_S_ b n z).trans ?_
  rw [val_main_cst_2_apply, Ideal.ofBits_def, inf_top]
  exact ⟨fun H m => (d_apply x0 x1 b n m) ▸ H.2 m, fun H => ⟨le_top, fun m => (d_apply x0 x1 b n m).symm ▸ H m⟩⟩

/-- The second vector of minima at (b, m): the lower bounds of the distances from every x0[b,n] to x1[b,m]. -/
theorem le_dist2 (x0 x1 : (⟨S4x8192x3, .f32⟩ : BufTy).Contents (Elt Ideal)) (b : Fin 4) (m : Fin 8192) (z : EReal) :
    z ≤ val_main_v14 (F := Ideal) x0 x1 (ix2 b m)
      ↔ ∀ n : Fin 8192, z ≤ sqd (fun k => x0 (ix3 b n k)) (fun k => x1 (ix3 b m k)) := by
  unfold val_main_v14
  refine (Cert.LibMinStack.le_hostReduce_min_mid _ _ Facts₀.reducesTo_S4x8192x8192_S4x8192_d1 (by decide) Facts₀.h_S_ b m z).trans ?_
  rw [val_main_cst_3_apply, Ideal.ofBits_def, inf_top]
  exact ⟨fun H n => (d_apply x0 x1 b n m) ▸ H.2 n, fun H => ⟨le_top, fun n => (d_apply x0 x1 b n m).symm ▸ H n⟩⟩

end Cert.ReferenceIdeal.Dist

end
-- ==== Proof.Ideal.Value.lean ====
/-
  The idealized kernel's result is the reference's. The first region leaves, at (b, n), the minimum over all points
  j of |x[b,n] − y[b,j]|² (x the first argument, y the second); the second region, with the arguments exchanged,
  leaves at (b, j) the minimum over n of |y[b,j] − x[b,n]|². The reference takes the same two families of minima from
  one distance stack, along its last and its middle axis. Minima are determined by their lower bounds, and the squared
  distance's spelling is symmetric (addition and multiplication on the extended reals are commutative), so the two
  vectors of minima agree entry by entry; the rest of both programs is one and the same host tail applied to them.
-/
import proofs.«111591_j44418551775684_1_alg».proof.Proof.Gen.KernelIdeal.Launch
import proofs.«111591_j44418551775684_1_alg».proof.Proof.Gen.KernelIdeal.Skeleton
import proofs.«111591_j44418551775684_1_alg».proof.Proof.Gen.KernelIdeal.Points
import proofs.«111591_j44418551775684_1_alg».proof.Proof.Gen.KernelIdeal.Regions
import proofs.«111591_j44418551775684_1_alg».proof.Proof.Ideal.Ends
import proofs.«111591_j44418551775684_1_alg».proof.Proof.Ideal.RowMin0
import proofs.«111591_j44418551775684_1_alg».proof.Proof.Ideal.RowMin1
import proofs.«111591_j44418551775684_1_alg».proof.Proof.RefRead
import Idealize.ShloMosaic.Lib.ValueIdx
import Idealize.ShloMosaic.Lib.ValueLayout
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.ValueIdx
open Idealize.SL Idealize.SL.Sem Idealize.ShloMosaic.StableHlo
open Idealize.ShloMosaic.Pipeline (Dat Cfg Window)
open Cert.KernelIdeal Cert.KernelIdeal.Gen Cert.SqDist

variable (m : (ℓ : Loc nD τ sig) → Buf (Elt Ideal) ℓ) (ρ : Dev nD → PrngReg)

/-- The host tail both programs end with: the two vectors averaged, the averages added, the sum times one. -/
def tail (d1 d2 : (⟨S4x8192, .f32⟩ : BufTy).Contents (Elt Ideal)) : (⟨S_, .f32⟩ : BufTy).Contents (Elt Ideal) :=
  mulf (constant (F := Ideal) S_ .f32 0x3F800000#32)
    (addf
      (Host.divf (F := Ideal) (Host.reduceAdd (F := Ideal) d1 (constant (F := Ideal) S_ .f32 0x00000000#32) Facts₀.reducesTo_S4x8192_S_d0_1 Facts₀.h_S_)
        (constant (F := Ideal) S_ .f32 0x47000000#32))
      (Host.divf (F := Ideal) (Host.reduceAdd (F := Ideal) d2 (constant (F := Ideal) S_ .f32 0x00000000#32) Facts₀.reducesTo_S4x8192_S_d0_1 Facts₀.h_S_)
        (constant (F := Ideal) S_ .f32 0x47000000#32)))

/-- The kernel's result is the tail of what the two regions leave. -/
theorem W5_v11 (c : Dev nD) :
    W5 m ρ c (Proc.devRef .tc main_v11)
      = tail (W4 m ρ c (Proc.devRef .tc main_v3)) (shapeCast S4x8192 (W4 m ρ c (Proc.devRef .tc main_v4)) Facts₀.shapeCasts_S4x8192x1_S4x8192) := by
  show StableHlo.after hostOps2 (W4 m ρ c) (Proc.devRef .tc main_v11) = _
  after_results
  rfl

/-! ## What the regions find in their input arrays -/

theorem V1_arg0 (c : Dev nD) : V1 m ρ c main_arg0 = m ((c : Thread nD τ).loc main_arg0) :=
  (StableHlo.after_of_writes_sub hostOps0 _ hostOps0_writes (r := main_arg0) (by decide)).trans rfl

theorem V1_v0 (c : Dev nD) :
    V1 m ρ c main_v0 = transpose S4x3x8192 [0, 2, 1] (m ((c : Thread nD τ).loc main_arg1)) Facts₀.transposes_S4x8192x3_S4x3x8192_0_2_1 := by
  show StableHlo.after hostOps0 (W0 m ρ c) (Proc.devRef .tc main_v0) = _
  after_results

theorem V3_arg1 (c : Dev nD) : V3 m ρ c main_arg1 = m ((c : Thread nD τ).loc main_arg1) :=
  calc W3 m ρ c (Proc.devRef .tc main_arg1)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem V3_v1 (c : Dev nD) :
    V3 m ρ c main_v1 = transpose S4x3x8192 [0, 2, 1] (m ((c : Thread nD τ).loc main_arg0)) Facts₀.transposes_S4x8192x3_S4x3x8192_0_2_1 :=
  calc W3 m ρ c (Proc.devRef .tc main_v1)
    _ = W2 m ρ c (Proc.devRef .tc main_v1) := StableHlo.after_of_writes_sub hostOps1 _ hostOps1_writes (r := main_v1) (by decide)
    _ = W1 m ρ c (Proc.devRef .tc main_v1) := W2_of_ne m ρ c main_v1 (by decide)
    _ = _ := by
      show StableHlo.after hostOps0 (W0 m ρ c) (Proc.devRef .tc main_v1) = _
      after_results

/-! ## What the regions leave -/

/-- The first vector the tail averages is region 0's result array, its unit axis dropped. -/
theorem W4_v3 (c : Dev nD) :
    W4 m ρ c (Proc.devRef .tc main_v3)
      = shapeCast S4x8192 ((Tile0.dat (V1 m ρ) c).arrAt 2 cfg0.N) Facts₀.shapeCasts_S4x8192x1_S4x8192 :=
  calc W4 m ρ c (Proc.devRef .tc main_v3)
    _ = W3 m ρ c (Proc.devRef .tc main_v3) := W4_of_ne m ρ c main_v3 (by decide)
    _ = shapeCast S4x8192 (W2 m ρ c (Proc.devRef .tc main_v2)) Facts₀.shapeCasts_S4x8192x1_S4x8192 := by
      show StableHlo.after hostOps1 (W2 m ρ c) (Proc.devRef .tc main_v3) = _
      after_results
      rfl
    _ = _ := congrArg (fun x => shapeCast S4x8192 x Facts₀.shapeCasts_S4x8192x1_S4x8192) (W2_arr m ρ c 2)

/-- A column stack `[4, 8192, 1]` with its unit axis dropped. -/
theorem drop_unit {α : Type} (v : S4x8192x1.Idx → α) (h : S4x8192x1.ShapeCasts S4x8192) (b : Fin 4) (n : Fin 8192) :
    shapeCast S4x8192 v h (ix2 b n) = v (ix3 b n 0) :=
  shapeCast_apply v h _ _ (by
    rw [Shape.rowMajor_val_two, Shape.rowMajor_val_three]
    show (b.val * 8192 + n.val) * 1 + 0 = b.val * 8192 + n.val
    omega)

/-- Region 0's minima are the reference's first vector of minima. -/
theorem first_minima (c : Dev nD) :
    W4 m ρ c (Proc.devRef .tc main_v3)
      = Cert.ReferenceIdeal.Read.val_main_v13 (F := Ideal) (m ((c : Thread nD τ).loc main_arg0)) (m ((c : Thread nD τ).loc main_arg1)) := by
  funext i
  obtain ⟨b, n, rfl⟩ : ∃ (b : Fin 4) (n : Fin 8192), i = ix2 b n := ⟨i 0, i 1, eq_ix2 i⟩
  refine Cert.LibMinBounds.eq_of_forall_le_iff fun z => ?_
  rw [W4_v3, drop_unit, Tile0.le_result]
  refine Iff.trans ?_ (Cert.ReferenceIdeal.Dist.le_dist1 _ _ b n z).symm
  refine forall_congr' fun j => ?_
  unfold Tile0.dd
  rw [V1_arg0, V1_v0]
  have e : ∀ k : Fin 3, transpose S4x3x8192 [0, 2, 1] (m ((c : Thread nD τ).loc main_arg1)) Facts₀.transposes_S4x8192x3_S4x3x8192_0_2_1 (ix3 b k j)
      = m ((c : Thread nD τ).loc main_arg1) (ix3 b j k) := fun k => transpose_ix3_021_apply _ _ b k j
  simp only [e]

/-- Region 1's minima are the reference's second vector of minima: the same distances with the two points named in
    the other order. -/
theorem second_minima (c : Dev nD) :
    shapeCast S4x8192 (W4 m ρ c (Proc.devRef .tc main_v4)) Facts₀.shapeCasts_S4x8192x1_S4x8192
      = Cert.ReferenceIdeal.Read.val_main_v14 (F := Ideal) (m ((c : Thread nD τ).loc main_arg0)) (m ((c : Thread nD τ).loc main_arg1)) := by
  funext i
  obtain ⟨b, j, rfl⟩ : ∃ (b : Fin 4) (j : Fin 8192), i = ix2 b j := ⟨i 0, i 1, eq_ix2 i⟩
  refine Cert.LibMinBounds.eq_of_forall_le_iff fun z => ?_
  rw [drop_unit, show W4 m ρ c (Proc.devRef .tc main_v4) = (Tile1.dat (V3 m ρ) c).arrAt 2 cfg1.N from W4_arr m ρ c 2, Tile1.le_result]
  refine Iff.trans ?_ (Cert.ReferenceIdeal.Dist.le_dist2 _ _ b j z).symm
  refine forall_congr' fun n => ?_
  unfold Tile1.dd
  rw [V3_arg1, V3_v1, sqd_comm]
  have e : ∀ k : Fin 3, transpose S4x3x8192 [0, 2, 1] (m ((c : Thread nD τ).loc main_arg0)) Facts₀.transposes_S4x8192x3_S4x3x8192_0_2_1 (ix3 b k n)
      = m ((c : Thread nD τ).loc main_arg0) (ix3 b n k) := fun k => transpose_ix3_021_apply _ _ b k n
  simp only [e]

/-- THE VALUE: the kernel's result is the reference's result term of the same arguments. -/
theorem result_eq (c : Dev nD) :
    W5 m ρ c (Proc.devRef .tc main_v11)
      = Cert.ReferenceIdeal.Read.val_main_v20 (F := Ideal) (m ((c : Thread nD τ).loc main_arg0)) (m ((c : Thread nD τ).loc main_arg1)) := by
  rw [W5_v11, first_minima, second_minima]
  rfl

end Cert.KernelIdeal.Whole

end
-- ==== Proof.lean ====
/-
  The chamfer distance of two point sets, computed tile by tile against its plain reference.

  The program runs one tile kernel twice. A launch walks a 16 × 16 grid: the first coordinate picks 512 query points,
  the second a tile of 512 points of the searched set; a scratch block keeps, for each query, the smallest squared
  distance |a|² + |b|² − 2 a·b met so far along the row (reset to +inf at the row's first tile, copied to the result
  at its last). The first launch searches the second point set for the first set's points, the second launch the
  first set for the second set's; the host averages both vectors of minima and adds the averages.

  FRAMES. Each launch is a pipelined region whose body is run case by case (first tile of a row, a middle tile, the
  last tile); an invariant carries the scratch block's contents from point to point, the two regions and the three
  stretches of host operations are chained through the buffers' contents at their boundaries, and no step writes an
  argument array. This is proved once for any float instance and read at the word level and at the extended reals.

  VALUE. At the extended reals a minimum is determined by its lower bounds. After the last tile of a row the scratch
  block at a query holds a number whose lower bounds are those of the distances to ALL 8192 searched points; the
  reference's reduce-min along the last (resp. middle) axis of its distance stack has the same lower bounds, the
  spelling of the squared distance being symmetric in its two points. So the two vectors of minima agree entry by
  entry, and both programs end with the same host tail. No finiteness is needed: only commutativity of + and ·.
-/
import proofs.«111591_j44418551775684_1_alg».proof.Defs
import proofs.«111591_j44418551775684_1_alg».proof.Proof.Gen.Kernel
import proofs.«111591_j44418551775684_1_alg».proof.Proof.Gen.KernelIdeal
import proofs.«111591_j44418551775684_1_alg».proof.Proof.Gen.ReferenceIdeal
import proofs.«111591_j44418551775684_1_alg».proof.Proof.Gen.Pre_finite_inputs
import proofs.«111591_j44418551775684_1_alg».proof.Proof.Gen.ReferenceIdeal.Run
import proofs.«111591_j44418551775684_1_alg».proof.Proof.Gen.ReferenceIdeal.Read
import proofs.«111591_j44418551775684_1_alg».proof.Proof.Bits.Ends
import proofs.«111591_j44418551775684_1_alg».proof.Proof.Ideal.Ends
import proofs.«111591_j44418551775684_1_alg».proof.Proof.Ideal.Value
import Idealize.ShloMosaic.Adequacy
import Idealize.ShloMosaic.Init

noncomputable section

namespace Cert.Proof

open Idealize.ShloMosaic Idealize.ShloMosaic.TcCoe Idealize.SL.Sem

/-- The word-level program runs to the end and leaves its arguments alone. -/
theorem frame_k : Cert.frame_Kernel := fun m ρ _ => Cert.Kernel.Whole.frame (F := Bits) m ρ

/-- So does the program read at the extended reals. -/
theorem frame_ki : Cert.frame_KernelIdeal := fun m ρ _ => Cert.KernelIdeal.Whole.frame (F := Ideal) m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the same number: the kernel's at the host tail of its two regions' minima, the
    reference's at the same tail of its two reduce-mins, and the minima agree (`result_eq`). -/
theorem algebraic : Cert.algebraic_KernelIdeal_ReferenceIdeal := by
  intro m ρ m' ρ' _ hagree
  refine ⟨fun c => Cert.KernelIdeal.Whole.W5 m ρ c (Proc.devRef .tc Cert.KernelIdeal.main_v11), ?_, ?_⟩
  · exact (θ_run Cert.KernelIdeal.defs _ _).mono (fun r h c =>
      ⟨h c _ (Cert.KernelIdeal.Whole.mem_uc Cert.KernelIdeal.main_v11 (by decide)),
       (h c _ (Cert.KernelIdeal.Whole.mem_uc Cert.KernelIdeal.main_arg0 (by decide))).trans (Cert.KernelIdeal.Whole.W5_main_arg0 m ρ c),
       (h c _ (Cert.KernelIdeal.Whole.mem_uc Cert.KernelIdeal.main_arg1 (by decide))).trans (Cert.KernelIdeal.Whole.W5_main_arg1 m ρ c)⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, (hagree c).1, (hagree c).2]
    exact (Cert.KernelIdeal.Whole.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
